-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S50000x16 : Shape := ⟨2, ![50000, 16]⟩
abbrev S800000x16 : Shape := ⟨2, ![800000, 16]⟩
abbrev S800000 : Shape := ⟨1, ![800000]⟩
abbrev S144x64 : Shape := ⟨2, ![144, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S50000x16 : S_.BroadcastsInDim S50000x16 (![] : Fin 0 → Fin S50000x16.rank)
  reducesTo_S50000x16_S_d0_1 : S50000x16.ReducesTo [0, 1] S_
  bcast_S_S800000x16 : S_.BroadcastsInDim S800000x16 (![] : Fin 0 → Fin S800000x16.rank)
  reducesTo_S800000x16_S_d0_1 : S800000x16.ReducesTo [0, 1] S_
  bcast_S_S144x64 : S_.BroadcastsInDim S144x64 (![] : Fin 0 → Fin S144x64.rank)
  reducesTo_S144x64_S_d0_1 : S144x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_
  bcast_S_S800000 : S_.BroadcastsInDim S800000 (![] : Fin 0 → Fin S800000.rank)
  reducesTo_S800000_S_d0 : S800000.ReducesTo [0] S_

variable [Facts]

def fn_part3 {F : FTy → Type} [FloatOps F] (main_v47 : IVec S_ 1) (main_v49 : IVec S800000 1) (main_c_19 : IVec S_ 1) : IVec S_ 1 :=
  let main_v50 : IVec S_ 1 := (fun x v => Host.reduce IntOp.andi x v reducesTo_S800000_S_d0 h_S_) main_v49 main_c_19
  let main_v51 : IVec S_ 1 := andi main_v47 main_v50
  main_v51

def fn_part2 {F : FTy → Type} [FloatOps F] (main_arg3 : IVec S800000 32) (main_arg9 : FVec F S64x10 .f32) (main_arg10 : FVec F S10 .f32) (main_v33 : IVec S_ 1) : IVec S_ 1 :=
  let main_v34 : FVec F S64x10 .f32 := Host.absf main_arg9
  let main_cst_12 : FVec F S_ .f32 := constant S_ .f32 0x7F800000#32
  let main_v35 : FVec F S64x10 .f32 := broadcastInDim S64x10 ![] bcast_S_S64x10 main_cst_12
  let main_v36 : IVec S64x10 1 := cmpf .olt main_v34 main_v35
  let main_c_13 : IVec S_ 1 := constantI S_ 1 1#1
  let main_v37 : IVec S_ 1 := (fun x v => Host.reduce IntOp.andi x v reducesTo_S64x10_S_d0_1 h_S_) main_v36 main_c_13
  let main_v38 : IVec S_ 1 := andi main_v33 main_v37
  let main_v39 : FVec F S10 .f32 := Host.absf main_arg10
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  let main_c_16 : IVec S_ 32 := constantI S_ 32 0#32
  let main_v44 : IVec S800000 32 := broadcastInDim S800000 ![] bcast_S_S800000 main_c_16
  let main_v45 : IVec S800000 1 := cmpi .sge main_arg3 main_v44
  let main_c_17 : IVec S_ 1 := constantI S_ 1 1#1
  let main_v46 : IVec S_ 1 := (fun x v => Host.reduce IntOp.andi x v reducesTo_S800000_S_d0 h_S_) main_v45 main_c_17
  let main_v47 : IVec S_ 1 := andi main_v43 main_v46
  let main_c_18 : IVec S_ 32 := constantI S_ 32 50000#32
  let main_v48 : IVec S800000 32 := broadcastInDim S800000 ![] bcast_S_S800000 main_c_18
  let main_v49 : IVec S800000 1 := cmpi .slt main_arg3 main_v48
  let main_c_19 : IVec S_ 1 := constantI S_ 1 1#1
  fn_part3 (F := F) main_v47 main_v49 main_c_19

def fn_part1 {F : FTy → Type} [FloatOps F] (main_arg3 : IVec S800000 32) (main_arg6 : FVec F S64 .f32) (main_arg7 : FVec F S144x64 .f32) (main_arg8 : FVec F S64 .f32) (main_arg9 : FVec F S64x10 .f32) (main_arg10 : FVec F S10 .f32) (main_v13 : IVec S_ 1) (main_v16 : IVec S144x64 1) : IVec S_ 1 :=
  let main_c_5 : IVec S_ 1 := constantI S_ 1 1#1
  let main_v17 : IVec S_ 1 := (fun x v => Host.reduce IntOp.andi x v reducesTo_S144x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S144x64 .f32 := Host.absf main_arg7
  let main_cst_8 : FVec F S_ .f32 := constant S_ .f32 0x7F800000#32
  let main_v25 : FVec F S144x64 .f32 := broadcastInDim S144x64 ![] bcast_S_S144x64 main_cst_8
  let main_v26 : IVec S144x64 1 := cmpf .olt main_v24 main_v25
  let main_c_9 : IVec S_ 1 := constantI S_ 1 1#1
  let main_v27 : IVec S_ 1 := (fun x v => Host.reduce IntOp.andi x v reducesTo_S144x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg3 main_arg9 main_arg10 main_v33

def fn {F : FTy → Type} [FloatOps F] (main_arg0 : FVec F S50000x64 .f32) (main_arg1 : FVec F S50000x16 .f32) (main_arg2 : FVec F S800000x16 .f32) (main_arg3 : IVec S800000 32) (main_arg4 : IVec S800000 32) (main_arg5 : FVec F S144x64 .f32) (main_arg6 : FVec F S64 .f32) (main_arg7 : FVec F S144x64 .f32) (main_arg8 : FVec F S64 .f32) (main_arg9 : FVec F S64x10 .f32) (main_arg10 : FVec F S10 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x16 .f32 := Host.absf main_arg1
  let main_cst_0 : FVec F S_ .f32 := constant S_ .f32 0x7F800000#32
  let main_v5 : FVec F S50000x16 .f32 := broadcastInDim S50000x16 ![] bcast_S_S50000x16 main_cst_0
  let main_v6 : IVec S50000x16 1 := cmpf .olt main_v4 main_v5
  let main_c_1 : IVec S_ 1 := constantI S_ 1 1#1
  let main_v7 : IVec S_ 1 := (fun x v => Host.reduce IntOp.andi x v reducesTo_S50000x16_S_d0_1 h_S_) main_v6 main_c_1
  let main_v8 : IVec S_ 1 := andi main_v3 main_v7
  let main_v9 : FVec F S800000x16 .f32 := Host.absf main_arg2
  let main_cst_2 : FVec F S_ .f32 := constant S_ .f32 0x7F800000#32
  let main_v10 : FVec F S800000x16 .f32 := broadcastInDim S800000x16 ![] bcast_S_S800000x16 main_cst_2
  let main_v11 : IVec S800000x16 1 := cmpf .olt main_v9 main_v10
  let main_c_3 : IVec S_ 1 := constantI S_ 1 1#1
  let main_v12 : IVec S_ 1 := (fun x v => Host.reduce IntOp.andi x v reducesTo_S800000x16_S_d0_1 h_S_) main_v11 main_c_3
  let main_v13 : IVec S_ 1 := andi main_v8 main_v12
  let main_v14 : FVec F S144x64 .f32 := Host.absf main_arg5
  let main_cst_4 : FVec F S_ .f32 := constant S_ .f32 0x7F800000#32
  let main_v15 : FVec F S144x64 .f32 := broadcastInDim S144x64 ![] bcast_S_S144x64 main_cst_4
  let main_v16 : IVec S144x64 1 := cmpf .olt main_v14 main_v15
  fn_part1 (F := F) main_arg3 main_arg6 main_arg7 main_arg8 main_arg9 main_arg10 main_v13 main_v16
-- ==== Kernel.lean ====
abbrev S50000x64 : Shape := ⟨2, ![50000, 64]⟩
abbrev S50000x16 : Shape := ⟨2, ![50000, 16]⟩
abbrev S800000x16 : Shape := ⟨2, ![800000, 16]⟩
abbrev S800000 : Shape := ⟨1, ![800000]⟩
abbrev S144x64 : Shape := ⟨2, ![144, 64]⟩
abbrev S64 : Shape := ⟨1, ![64]⟩
abbrev S64x10 : Shape := ⟨2, ![64, 10]⟩
abbrev S10 : Shape := ⟨1, ![10]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x64 : Shape := ⟨2, ![800000, 64]⟩
abbrev S50000x1 : Shape := ⟨2, ![50000, 1]⟩
abbrev S64x64 : Shape := ⟨2, ![64, 64]⟩
abbrev S16x64 : Shape := ⟨2, ![16, 64]⟩
abbrev S1x64 : Shape := ⟨2, ![1, 64]⟩
abbrev S1x10 : Shape := ⟨2, ![1, 10]⟩
abbrev S50000x10 : Shape := ⟨2, ![50000, 10]⟩
abbrev S2000x64 : Shape := ⟨2, ![2000, 64]⟩
abbrev S2000x16 : Shape := ⟨2, ![2000, 16]⟩
abbrev S2000x1 : Shape := ⟨2, ![2000, 1]⟩
abbrev S2000x10 : Shape := ⟨2, ![2000, 10]⟩
abbrev S2000 : Shape := ⟨1, ![2000]⟩

abbrev nBuf : Space → Nat
  | .hbm => 69
  | .vmem => 22
  | .smem => 0
  | _ => 0

abbrev bufTy : (tb : Table) → Fin (tcTables nBuf tb) → BufTy
  | .hbm, ⟨0, _⟩ => ⟨S50000x64, .f32⟩
  | .hbm, ⟨1, _⟩ => ⟨S50000x16, .f32⟩
  | .hbm, ⟨2, _⟩ => ⟨S800000x16, .f32⟩
  | .hbm, ⟨3, _⟩ => ⟨S800000, .i32⟩
  | .hbm, ⟨4, _⟩ => ⟨S800000, .i32⟩
  | .hbm, ⟨5, _⟩ => ⟨S144x64, .f32⟩
  | .hbm, ⟨6, _⟩ => ⟨S64, .f32⟩
  | .hbm, ⟨7, _⟩ => ⟨S144x64, .f32⟩
  | .hbm, ⟨8, _⟩ => ⟨S64, .f32⟩
  | .hbm, ⟨9, _⟩ => ⟨S64x10, .f32⟩
  | .hbm, ⟨10, _⟩ => ⟨S10, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S1, .i32⟩
  | .hbm, ⟨20, _⟩ => ⟨S_, .i32⟩
  | .hbm, ⟨21, _⟩ => ⟨S800000x1, .i32⟩
  | .hbm, ⟨22, _⟩ => ⟨S800000x1, .i1⟩
  | .hbm, ⟨23, _⟩ => ⟨S1x1, .i32⟩
  | .hbm, ⟨24, _⟩ => ⟨S800000x1, .i32⟩
  | .hbm, ⟨25, _⟩ => ⟨S800000x1, .i1⟩
  | .hbm, ⟨26, _⟩ => ⟨S800000x1, .i1⟩
  | .hbm, ⟨27, _⟩ => ⟨S_, .i1⟩
  | .hbm, ⟨28, _⟩ => ⟨S800000, .i1⟩
  | .hbm, ⟨29, _⟩ => ⟨S800000x64, .f32⟩
  | .hbm, ⟨30, _⟩ => ⟨S800000x64, .i1⟩
  | .hbm, ⟨31, _⟩ => ⟨S_, .f32⟩
  | .hbm, ⟨32, _⟩ => ⟨S800000x64, .f32⟩
  | .hbm, ⟨33, _⟩ => ⟨S800000x64, .f32⟩
  | .hbm, ⟨34, _⟩ => ⟨S_, .f32⟩
  | .hbm, ⟨35, _⟩ => ⟨S50000x64, .f32⟩
  | .hbm, ⟨36, _⟩ => ⟨S800000x1, .i32⟩
  | .hbm, ⟨37, _⟩ => ⟨S50000x64, .f32⟩
  | .hbm, ⟨38, _⟩ => ⟨S_, .f32⟩
  | .hbm, ⟨39, _⟩ => ⟨S50000x16, .f32⟩
  | .hbm, ⟨40, _⟩ => ⟨S800000x1, .i32⟩
  | .hbm, ⟨41, _⟩ => ⟨S50000x16, .f32⟩
  | .hbm, ⟨42, _⟩ => ⟨S_, .f32⟩
  | .hbm, ⟨43, _⟩ => ⟨S800000x1, .f32⟩
  | .hbm, ⟨44, _⟩ => ⟨S_, .f32⟩
  | .hbm, ⟨45, _⟩ => ⟨S50000x1, .f32⟩
  | .hbm, ⟨46, _⟩ => ⟨S800000x1, .i32⟩
  | .hbm, ⟨47, _⟩ => ⟨S50000x1, .f32⟩
  | .hbm, ⟨48, _⟩ => ⟨S50000x64, .bf16⟩
  | .hbm, ⟨49, _⟩ => ⟨S50000x16, .bf16⟩
  | .hbm, ⟨50, _⟩ => ⟨S50000x64, .bf16⟩
  | .hbm, ⟨51, _⟩ => ⟨S50000x16, .bf16⟩
  | .hbm, ⟨52, _⟩ => ⟨S64x64, .f32⟩
  | .hbm, ⟨53, _⟩ => ⟨S64x64, .bf16⟩
  | .hbm, ⟨54, _⟩ => ⟨S64x64, .f32⟩
  | .hbm, ⟨55, _⟩ => ⟨S64x64, .bf16⟩
  | .hbm, ⟨56, _⟩ => ⟨S16x64, .f32⟩
  | .hbm, ⟨57, _⟩ => ⟨S16x64, .bf16⟩
  | .hbm, ⟨58, _⟩ => ⟨S1x64, .f32⟩
  | .hbm, ⟨59, _⟩ => ⟨S64x64, .f32⟩
  | .hbm, ⟨60, _⟩ => ⟨S64x64, .bf16⟩
  | .hbm, ⟨61, _⟩ => ⟨S16x64, .f32⟩
  | .hbm, ⟨62, _⟩ => ⟨S16x64, .bf16⟩
  | .hbm, ⟨63, _⟩ => ⟨S64x64, .f32⟩
  | .hbm, ⟨64, _⟩ => ⟨S64x64, .bf16⟩
  | .hbm, ⟨65, _⟩ => ⟨S1x64, .f32⟩
  | .hbm, ⟨66, _⟩ => ⟨S64x10, .bf16⟩
  | .hbm, ⟨67, _⟩ => ⟨S1x10, .f32⟩
  | .hbm, ⟨68, _⟩ => ⟨S50000x10, .f32⟩
  | .local _ .vmem, ⟨0, _⟩ => ⟨S2000x64, .bf16⟩
  | .local _ .vmem, ⟨1, _⟩ => ⟨S2000x64, .bf16⟩
  | .local _ .vmem, ⟨2, _⟩ => ⟨S2000x16, .bf16⟩
  | .local _ .vmem, ⟨3, _⟩ => ⟨S2000x16, .bf16⟩
  | .local _ .vmem, ⟨4, _⟩ => ⟨S2000x64, .bf16⟩
  | .local _ .vmem, ⟨5, _⟩ => ⟨S2000x64, .bf16⟩
  | .local _ .vmem, ⟨6, _⟩ => ⟨S2000x16, .bf16⟩
  | .local _ .vmem, ⟨7, _⟩ => ⟨S2000x16, .bf16⟩
  | .local _ .vmem, ⟨8, _⟩ => ⟨S2000x1, .f32⟩
  | .local _ .vmem, ⟨9, _⟩ => ⟨S2000x1, .f32⟩
  | .local _ .vmem, ⟨10, _⟩ => ⟨S64x64, .bf16⟩
  | .local _ .vmem, ⟨11, _⟩ => ⟨S64x64, .bf16⟩
  | .local _ .vmem, ⟨12, _⟩ => ⟨S16x64, .bf16⟩
  | .local _ .vmem, ⟨13, _⟩ => ⟨S1x64, .f32⟩
  | .local _ .vmem, ⟨14, _⟩ => ⟨S64x64, .bf16⟩
  | .local _ .vmem, ⟨15, _⟩ => ⟨S16x64, .bf16⟩
  | .local _ .vmem, ⟨16, _⟩ => ⟨S64x64, .bf16⟩
  | .local _ .vmem, ⟨17, _⟩ => ⟨S1x64, .f32⟩
  | .local _ .vmem, ⟨18, _⟩ => ⟨S64x10, .bf16⟩
  | .local _ .vmem, ⟨19, _⟩ => ⟨S1x10, .f32⟩
  | .local _ .vmem, ⟨20, _⟩ => ⟨S2000x10, .f32⟩
  | .local _ .vmem, ⟨21, _⟩ => ⟨S2000x10, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v0 : Ref sig .tc := ⟨.hbm, 33, rfl⟩
abbrev main_cst : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_cst_0 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_cst_1 : Ref sig .tc := ⟨.hbm, 42, rfl⟩
abbrev main_v7 : Ref sig .tc := ⟨.hbm, 43, rfl⟩
abbrev main_cst_2 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg15_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem15_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x16 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x16 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S64x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x64 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x64 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x10 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x10 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S2000x10 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  bcast_S_S50000x16 : S_.BroadcastsInDim S50000x16 (![] : Fin 0 → Fin S50000x16.rank)
  bcast_S_S50000x1 : S_.BroadcastsInDim S50000x1 (![] : Fin 0 → Fin S50000x1.rank)
  bitsLt_bf16_f32 : FTy.bits .bf16 < FTy.bits .f32
  slices_S144x64_S64x64_0_0 : S144x64.Slices ![0, 0] S64x64
  slices_S144x64_S64x64_64_0 : S144x64.Slices ![64, 0] S64x64
  slices_S144x64_S16x64_128_0 : S144x64.Slices ![128, 0] S16x64
  shapeCasts_S64_S1x64 : S64.ShapeCasts S1x64
  slices_S144x64_S16x64_64_0 : S144x64.Slices ![64, 0] S16x64
  slices_S144x64_S64x64_80_0 : S144x64.Slices ![80, 0] S64x64
  shapeCasts_S10_S1x10 : S10.ShapeCasts S1x10
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  broadcasts_S2000x1_S2000x64 : S2000x1.Broadcasts S2000x64
  inb_S2000x16_S2000x16_0_0 : ∀ a, (![0, 0] : Fin 2 → Nat) a + S2000x16.size a ≤ S2000x16.size a
  h_S2000x16 : 0 < S2000x16.numel
  shapeCasts_S2000x16_S2000x16 : S2000x16.ShapeCasts S2000x16
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x10_S64x10_0_0 : ∀ a, (![0, 0] : Fin 2 → Nat) a + S64x10.size a ≤ S64x10.size a
  h_S64x10 : 0 < S64x10.numel
  shapeCasts_S64x10_S64x10 : S64x10.ShapeCasts S64x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S2000x10 : S1x10.Broadcasts S2000x10
  reduces_S2000x10_S2000 : S2000x10.Reduces [1] S2000
  shapeCasts_S2000_S2000x1 : S2000.ShapeCasts S2000x1
  broadcasts_S2000x1_S2000x10 : S2000x1.Broadcasts S2000x10
  inb_S2000x10_S2000x10_0_0 : ∀ a, (![0, 0] : Fin 2 → Nat) a + S2000x10.size a ≤ S2000x10.size a
  h_S2000x10 : 0 < S2000x10.numel
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000x16_S800000x1_S800000x16_1_0_0_1_wf : ScatterDims.WF S50000x16 S800000x1 S800000x16 [1] [0] [0] 1
  scatter_S50000x1_S800000x1_S800000x1_1_0_0_1_wf : ScatterDims.WF S50000x1 S800000x1 S800000x1 [1] [0] [0] 1
  dot_S2000x64_S64x64_S2000x64_1_0_0_1_n_n_wf : DotDims.WF S2000x64 S64x64 S2000x64 [1] [0] [0] [1] [] []
  dot_S2000x16_S16x64_S2000x64_1_0_0_1_n_n_wf : DotDims.WF S2000x16 S16x64 S2000x64 [1] [0] [0] [1] [] []
  dot_S2000x64_S64x10_S2000x10_1_0_0_1_n_n_wf : DotDims.WF S2000x64 S64x10 S2000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .bf16 = 32 ∨ (Rect.block (s := S50000x64) S2000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x16.size a ≤ S50000x16.size a
  hwx0_1 : ∀ i : grid0.Coords, EltTy.bits .bf16 = 32 ∨ (Rect.block (s := S50000x16) S2000x16.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .bf16 = 32 ∨ (Rect.block (s := S50000x64) S2000x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x16.size a ≤ S50000x16.size a
  hwx0_3 : ∀ i : grid0.Coords, EltTy.bits .bf16 = 32 ∨ (Rect.block (s := S50000x16) S2000x16.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x1.size a ≤ S50000x1.size a
  hwx0_4 : ∀ i : grid0.Coords, EltTy.bits .f32 = 32 ∨ (Rect.block (s := S50000x1) S2000x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .bf16 = 32 ∨ (Rect.block (s := S64x64) S64x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .bf16 = 32 ∨ (Rect.block (s := S64x64) S64x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x64.size a ≤ S16x64.size a
  hwx0_7 : ∀ i : grid0.Coords, EltTy.bits .bf16 = 32 ∨ (Rect.block (s := S16x64) S16x64.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x64.size a ≤ S64x64.size a
  hwx0_9 : ∀ i : grid0.Coords, EltTy.bits .bf16 = 32 ∨ (Rect.block (s := S64x64) S64x64.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S16x64.size a ≤ S16x64.size a
  hwx0_10 : ∀ i : grid0.Coords, EltTy.bits .bf16 = 32 ∨ (Rect.block (s := S16x64) S16x64.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x64.size a ≤ S64x64.size a
  hwx0_11 : ∀ i : grid0.Coords, EltTy.bits .bf16 = 32 ∨ (Rect.block (s := S64x64) S64x64.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x64.size a ≤ S1x64.size a
  hwx0_12 : ∀ i : grid0.Coords, EltTy.bits .f32 = 32 ∨ (Rect.block (s := S1x64) S1x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S64x10.size a ≤ S64x10.size a
  hwx0_13 : ∀ i : grid0.Coords, EltTy.bits .bf16 = 32 ∨ (Rect.block (s := S64x10) S64x10.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x10.size a ≤ S1x10.size a
  hwx0_14 : ∀ i : grid0.Coords, EltTy.bits .f32 = 32 ∨ (Rect.block (s := S1x10) S1x10.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S2000x10.size a ≤ S50000x10.size a
  hwx0_15 : ∀ i : grid0.Coords, EltTy.bits .f32 = 32 ∨ (Rect.block (s := S50000x10) S2000x10.size (cc0_transform_15 i) (hinb0_15 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000x16_S800000x1_S800000x16_1_0_0_1 : ScatterDims S50000x16 S800000x1 S800000x16 where
  updateWindowDims := [1]
  insertedWindowDims := [0]
  scatterDimsToOperandDims := [0]
  indexVectorDim := 1
  wf := scatter_S50000x16_S800000x1_S800000x16_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x16_S16x64_S2000x64_1_0_0_1_n_n : DotDims S2000x16 S16x64 S2000x64 where
  lhsContracting := [1]
  rhsContracting := [0]
  lhsNonContracting := [0]
  rhsNonContracting := [1]
  lhsBatch := []
  rhsBatch := []
  wf := dot_S2000x16_S16x64_S2000x64_1_0_0_1_n_n_wf
def dot_S2000x64_S64x10_S2000x10_1_0_0_1_n_n : DotDims S2000x64 S64x10 S2000x10 where
  lhsContracting := [1]
  rhsContracting := [0]
  lhsNonContracting := [0]
  rhsNonContracting := [1]
  lhsBatch := []
  rhsBatch := []
  wf := dot_S2000x64_S64x10_S2000x10_1_0_0_1_n_n_wf

abbrev win0_0 : Pipeline.Window sig grid0 :=
  Pipeline.Window.ofSpec (Memref.whole main_v11) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S2000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S2000x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S2000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v16) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20) S16x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v21) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v23) S64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v25) S16x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v27) S64x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v28) S1x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v29) S64x10.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v30) S1x10.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v31) S2000x10.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S50000x64 : Shape := ⟨2, ![50000, 64]⟩
abbrev S50000x16 : Shape := ⟨2, ![50000, 16]⟩
abbrev S800000x16 : Shape := ⟨2, ![800000, 16]⟩
abbrev S800000 : Shape := ⟨1, ![800000]⟩
abbrev S144x64 : Shape := ⟨2, ![144, 64]⟩
abbrev S64 : Shape := ⟨1, ![64]⟩
abbrev S64x10 : Shape := ⟨2, ![64, 10]⟩
abbrev S10 : Shape := ⟨1, ![10]⟩
abbrev S_ : Shape := ⟨0, ![]⟩
abbrev S800000x1 : Shape := ⟨2, ![800000, 1]⟩
abbrev S800000x64 : Shape := ⟨2, ![800000, 64]⟩
abbrev S800000x144 : Shape := ⟨2, ![800000, 144]⟩
abbrev S1x64 : Shape := ⟨2, ![1, 64]⟩
abbrev S50000x144 : Shape := ⟨2, ![50000, 144]⟩
abbrev S50000x10 : Shape := ⟨2, ![50000, 10]⟩
abbrev S1x10 : Shape := ⟨2, ![1, 10]⟩
abbrev S50000 : Shape := ⟨1, ![50000]⟩
abbrev S50000x1 : Shape := ⟨2, ![50000, 1]⟩

abbrev nBuf : Space → Nat
  | .hbm => 61
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S50000x16, .f32⟩
  | .hbm, ⟨2, _⟩ => ⟨S800000x16, .f32⟩
  | .hbm, ⟨3, _⟩ => ⟨S800000, .i32⟩
  | .hbm, ⟨4, _⟩ => ⟨S800000, .i32⟩
  | .hbm, ⟨5, _⟩ => ⟨S144x64, .f32⟩
  | .hbm, ⟨6, _⟩ => ⟨S64, .f32⟩
  | .hbm, ⟨7, _⟩ => ⟨S144x64, .f32⟩
  | .hbm, ⟨8, _⟩ => ⟨S64, .f32⟩
  | .hbm, ⟨9, _⟩ => ⟨S64x10, .f32⟩
  | .hbm, ⟨10, _⟩ => ⟨S10, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x64, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x64, .f32⟩
  | .hbm, ⟨29, _⟩ => ⟨S800000x144, .f32⟩
  | .hbm, ⟨30, _⟩ => ⟨S800000x64, .f32⟩
  | .hbm, ⟨31, _⟩ => ⟨S1x64, .f32⟩
  | .hbm, ⟨32, _⟩ => ⟨S800000x64, .f32⟩
  | .hbm, ⟨33, _⟩ => ⟨S800000x64, .f32⟩
  | .hbm, ⟨34, _⟩ => ⟨S_, .f32⟩
  | .hbm, ⟨35, _⟩ => ⟨S50000x64, .f32⟩
  | .hbm, ⟨36, _⟩ => ⟨S800000x1, .i32⟩
  | .hbm, ⟨37, _⟩ => ⟨S50000x64, .f32⟩
  | .hbm, ⟨38, _⟩ => ⟨S50000x144, .f32⟩
  | .hbm, ⟨39, _⟩ => ⟨S50000x64, .f32⟩
  | .hbm, ⟨40, _⟩ => ⟨S1x64, .f32⟩
  | .hbm, ⟨41, _⟩ => ⟨S50000x64, .f32⟩
  | .hbm, ⟨42, _⟩ => ⟨S50000x64, .f32⟩
  | .hbm, ⟨43, _⟩ => ⟨S50000x10, .f32⟩
  | .hbm, ⟨44, _⟩ => ⟨S1x10, .f32⟩
  | .hbm, ⟨45, _⟩ => ⟨S50000x10, .f32⟩
  | .hbm, ⟨46, _⟩ => ⟨S50000x10, .f32⟩
  | .hbm, ⟨47, _⟩ => ⟨S_, .f32⟩
  | .hbm, ⟨48, _⟩ => ⟨S50000, .f32⟩
  | .hbm, ⟨49, _⟩ => ⟨S_, .f32⟩
  | .hbm, ⟨50, _⟩ => ⟨S50000, .f32⟩
  | .hbm, ⟨51, _⟩ => ⟨S50000, .f32⟩
  | .hbm, ⟨52, _⟩ => ⟨S50000x1, .f32⟩
  | .hbm, ⟨53, _⟩ => ⟨S50000x10, .f32⟩
  | .hbm, ⟨54, _⟩ => ⟨S50000x10, .f32⟩
  | .hbm, ⟨55, _⟩ => ⟨S50000x10, .f32⟩
  | .hbm, ⟨56, _⟩ => ⟨S_, .f32⟩
  | .hbm, ⟨57, _⟩ => ⟨S50000, .f32⟩
  | .hbm, ⟨58, _⟩ => ⟨S50000x1, .f32⟩
  | .hbm, ⟨59, _⟩ => ⟨S50000x10, .f32⟩
  | .hbm, ⟨60, _⟩ => ⟨S50000x10, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_3 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_5 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x16_S800000x144_d1 : Shape.Concatenates [S800000x64, S800000x64, S800000x16] S800000x144 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S50000x64 : S_.BroadcastsInDim S50000x64 (![] : Fin 0 → Fin S50000x64.rank)
  concatenates_S50000x64_S50000x16_S50000x64_S50000x144_d1 : Shape.Concatenates [S50000x64, S50000x16, S50000x64] S50000x144 1
  bcast_S1x64_S50000x64_0_1 : S1x64.BroadcastsInDim S50000x64 (![0, 1] : Fin 2 → Fin S50000x64.rank)
  bcast_S10_S1x10_1 : S10.BroadcastsInDim S1x10 (![1] : Fin 1 → Fin S1x10.rank)
  bcast_S1x10_S50000x10_0_1 : S1x10.BroadcastsInDim S50000x10 (![0, 1] : Fin 2 → Fin S50000x10.rank)
  reducesTo_S50000x10_S50000_d1 : S50000x10.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x10_0_1 : S50000x1.BroadcastsInDim S50000x10 (![0, 1] : Fin 2 → Fin S50000x10.rank)
  gather_S50000x64_S800000x1_S800000x64_1_0_n_n_0_1_164_wf : GatherDims.WF S50000x64 S800000x1 S800000x64 [1] [0] [] [0] [] 1 ![1, 64]
  dot_S800000x144_S144x64_S800000x64_1_0_0_1_n_n_wf : DotDims.WF S800000x144 S144x64 S800000x64 [1] [0] [0] [1] [] []
  scatter_S50000x64_S800000x1_S800000x64_1_0_0_1_wf : ScatterDims.WF S50000x64 S800000x1 S800000x64 [1] [0] [0] 1
  dot_S50000x144_S144x64_S50000x64_1_0_0_1_n_n_wf : DotDims.WF S50000x144 S144x64 S50000x64 [1] [0] [0] [1] [] []
  dot_S50000x64_S64x10_S50000x10_1_0_0_1_n_n_wf : DotDims.WF S50000x64 S64x10 S50000x10 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x144_S144x64_S800000x64_1_0_0_1_n_n : DotDims S800000x144 S144x64 S800000x64 where
  lhsContracting := [1]
  rhsContracting := [0]
  lhsNonContracting := [0]
  rhsNonContracting := [1]
  lhsBatch := []
  rhsBatch := []
  wf := dot_S800000x144_S144x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x144_S144x64_S50000x64_1_0_0_1_n_n : DotDims S50000x144 S144x64 S50000x64 where
  lhsContracting := [1]
  rhsContracting := [0]
  lhsNonContracting := [0]
  rhsNonContracting := [1]
  lhsBatch := []
  rhsBatch := []
  wf := dot_S50000x144_S144x64_S50000x64_1_0_0_1_n_n_wf
def dot_S50000x64_S64x10_S50000x10_1_0_0_1_n_n : DotDims S50000x64 S64x10 S50000x10 where
  lhsContracting := [1]
  rhsContracting := [0]
  lhsNonContracting := [0]
  rhsNonContracting := [1]
  lhsBatch := []
  rhsBatch := []
  wf := dot_S50000x64_S64x10_S50000x10_1_0_0_1_n_n_wf

class Facts : Prop extends Facts₀ where

variable [Facts]
-- ==== Proof.PreFacts.lean ====
/-
  The precondition decoded. The generated predicate `Cert.Pre_finite_inputs.fn` is a conjunction of one-bit words:
  for each float argument x the word "every entry of |x| is below +∞", and for the index argument the two words
  "every entry is ≥ 0" and "every entry is < 50000" (signed). When the conjunction is 1, every conjunct is 1; a
  conjunct that is an and-reduction over all axes equal to 1 has a 1 at every index; and the element facts read:
  |x| < +∞ in the extended reals exactly when x is a real (⊤ and ⊥ both have |x| = ⊤), and the signed
  comparisons are inequalities between the words read as integers.
-/
import proofs.«165802_j90469191123233_2_alg».proof.Pre_finite_inputs
import Idealize.ShloMosaic.Lib.ReduceAll
import Idealize.ShloMosaic.Lib.ValueIdx
import Idealize.ShloMosaic.Lib.IdealHost
import Idealize.ShloMosaic.PureOps.Ideal.Laws

noncomputable section

namespace Cert.PreFacts

open Idealize.ShloMosaic Idealize.ShloMosaic.ValueIdx
open Cert.Pre_finite_inputs

/-- The rank-0 shape has one index. -/
instance : Subsingleton S_.Idx := ⟨fun a b => funext fun d => d.elim0⟩

/-- The pattern 0x7F800000 denotes +∞. -/
theorem inf_eq_top : Ideal.ofBits .f32 0x7F800000#32 = (⊤ : EReal) := by simp [Ideal.ofBits, Ideal.ieee]

/-- An extended real whose absolute value max x (−x) is strictly below +∞ is a real: at ⊤ and at ⊥ the absolute
    value is ⊤. -/
theorem real_of_abs_lt_top (x : EReal)
    (h : Ideal.cmp .olt (max x (-x)) (Ideal.ofBits .f32 0x7F800000#32) = 1#1) : ∃ r : ℝ, x = (r : EReal) := by
  rw [inf_eq_top] at h
  induction x using EReal.rec with
  | bot => simp [Ideal.cmp] at h
  | coe r => exact ⟨r, rfl⟩
  | top => simp [Ideal.cmp] at h

/-- "All entries of |x| are below +∞" equal to 1: every entry of x is a real. -/
theorem real_of_all {s : Shape} {axes : List (Fin s.rank)} (x : FVec Ideal s .f32)
    (hb : S_.BroadcastsInDim s (![] : Fin 0 → Fin s.rank)) (hr : s.ReducesTo axes S_) (hS : 0 < S_.numel)
    (init : IVec S_ 1) (j : S_.Idx)
    (e : Host.reduce IntOp.andi (cmpf .olt (Host.absf x) (broadcastInDim s ![] hb (constant S_ .f32 0x7F800000#32)))
          init hr hS j = 1#1)
    (i : s.Idx) : ∃ r : ℝ, x i = (r : EReal) := by
  have h1 := Host.reduce_andi_all _ _ hr hS j e i
  rw [cmpf_apply, broadcastInDim_scalar_apply, constant_apply] at h1
  exact real_of_abs_lt_top (x i) h1

/-- "All entries are ≥ c" (signed) equal to 1: every entry, read signed, is at least c read signed. -/
theorem sge_of_all {s : Shape} {axes : List (Fin s.rank)} (x : IVec s 32) (c : BitVec 32)
    (hb : S_.BroadcastsInDim s (![] : Fin 0 → Fin s.rank)) (hr : s.ReducesTo axes S_) (hS : 0 < S_.numel)
    (init : IVec S_ 1) (j : S_.Idx)
    (e : Host.reduce IntOp.andi (cmpi .sge x (broadcastInDim s ![] hb (constantI S_ 32 c))) init hr hS j = 1#1)
    (i : s.Idx) : c.toInt ≤ (x i).toInt := by
  have h1 : IntOp.cmpi .sge (x i) (broadcastInDim s ![] hb (constantI S_ 32 c) i) = 1#1 :=
    Host.reduce_andi_all _ _ hr hS j e i
  rw [broadcastInDim_scalar_apply] at h1
  exact IntOp.cmpi_sge.1 h1

/-- "All entries are < c" (signed) equal to 1: every entry, read signed, is below c read signed. -/
theorem slt_of_all {s : Shape} {axes : List (Fin s.rank)} (x : IVec s 32) (c : BitVec 32)
    (hb : S_.BroadcastsInDim s (![] : Fin 0 → Fin s.rank)) (hr : s.ReducesTo axes S_) (hS : 0 < S_.numel)
    (init : IVec S_ 1) (j : S_.Idx)
    (e : Host.reduce IntOp.andi (cmpi .slt x (broadcastInDim s ![] hb (constantI S_ 32 c))) init hr hS j = 1#1)
    (i : s.Idx) : (x i).toInt < c.toInt := by
  have h1 : IntOp.cmpi .slt (x i) (broadcastInDim s ![] hb (constantI S_ 32 c) i) = 1#1 :=
    Host.reduce_andi_all _ _ hr hS j e i
  rw [broadcastInDim_scalar_apply] at h1
  exact IntOp.cmpi_slt.1 h1

variable [Cert.Pre_finite_inputs.Facts]

/-- THE PRECONDITION DECODED: the entries of the four float arguments the law reads are reals, and every entry of the
    index argument, read signed, lies in [0, 50000). -/
theorem facts_of_pre (a0 : FVec Ideal S50000x64 .f32) (a1 : FVec Ideal S50000x16 .f32) (a2 : FVec Ideal S800000x16 .f32)
    (a3 a4 : IVec S800000 32) (a5 : FVec Ideal S144x64 .f32) (a6 : FVec Ideal S64 .f32) (a7 : FVec Ideal S144x64 .f32)
    (a8 : FVec Ideal S64 .f32) (a9 : FVec Ideal S64x10 .f32) (a10 : FVec Ideal S10 .f32)
    (h : Cert.Pre_finite_inputs.fn (F := Ideal) a0 a1 a2 a3 a4 a5 a6 a7 a8 a9 a10 = (fun _ => 1#1)) :
    (∀ i, ∃ x : ℝ, a0 i = (x : EReal)) ∧ (∀ i, ∃ x : ℝ, a2 i = (x : EReal)) ∧ (∀ i, ∃ x : ℝ, a5 i = (x : EReal))
      ∧ (∀ i, ∃ x : ℝ, a6 i = (x : EReal)) ∧ (∀ e, 0 ≤ (a3 e).toInt ∧ (a3 e).toInt < 50000) := by
  have e := congrFun h ix0
  dsimp only [Cert.Pre_finite_inputs.fn, fn_part1, fn_part2, fn_part3, andi] at e
  simp only [IntOp.andi_eq_one] at e
  obtain ⟨⟨⟨⟨⟨⟨⟨⟨⟨⟨h0, h1⟩, h2⟩, h5⟩, h6⟩, h7⟩, h8⟩, h9⟩, h10⟩, h3a⟩, h3b⟩ := e
  refine ⟨fun i => real_of_all a0 _ _ _ _ _ h0 i, fun i => real_of_all a2 _ _ _ _ _ h2 i,
    fun i => real_of_all a5 _ _ _ _ _ h5 i, fun i => real_of_all a6 _ _ _ _ _ h6 i, fun i => ⟨?_, ?_⟩⟩
  · have := sge_of_all a3 0#32 _ _ _ _ _ h3a i
    rwa [show (0#32 : BitVec 32).toInt = 0 from by decide] at this
  · have := slt_of_all a3 50000#32 _ _ _ _ _ h3b i
    rwa [show (50000#32 : BitVec 32).toInt = 50000 from by decide] at this

end Cert.PreFacts

end
-- ==== Proof.LibRowOps.lean ====
/-
  Row-wise reductions and column broadcasts of a matrix, read at an index, over the extended reals.

  For an a × b matrix: the maximum (or sum) over a row, whether taken by a vector reduction from a neutral
  accumulator or by the host's reduce from an initial value, is at row p the fold of max (or the sum) over the b
  columns of the entries (p, j). A vector of a entries stood up as an a × 1 column reads entry p at (p, 0), and
  that column spread over b columns reads (p, 0) at every (p, q); both in the vector spelling (shape cast, broadcast)
  and in the host's (broadcast in dimensions).
-/
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Idealize.ShloMosaic.RowOps

open Idealize.ShloMosaic Idealize.ShloMosaic.ValueIdx

variable {a b : Nat} {α : Type}

/-- A vector stood up as a column: entry p sits at (p, 0). -/
theorem colCast_apply (v : (⟨1, ![a]⟩ : Shape).Idx → α) (h : (⟨1, ![a]⟩ : Shape).ShapeCasts ⟨2, ![a, 1]⟩) (p : Fin a) :
    shapeCast ⟨2, ![a, 1]⟩ v h (ix2 p (0 : Fin 1)) = v (ix1 p) :=
  shapeCast_apply v h (ix2 p (0 : Fin 1)) (ix1 p) (by
    rw [Shape.rowMajor_val_one, Shape.rowMajor_val_two]; show p.val = p.val * 1 + 0; omega)

/-- A column spread over b columns reads its entry (p, 0) at every (p, q). -/
theorem colBcast_apply (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The host's column of a vector: entry p sits at (p, 0). -/
theorem colInDim_apply (v : (⟨1, ![a]⟩ : Shape).Idx → α) (h : (⟨1, ![a]⟩ : Shape).BroadcastsInDim ⟨2, ![a, 1]⟩ ![0])
    (p : Fin a) : broadcastInDim ⟨2, ![a, 1]⟩ ![0] h v (ix2 p (0 : Fin 1)) = v (ix1 p) := by
  refine broadcastInDim_apply ![0] h v (ix2 p (0 : Fin 1)) (ix1 p) fun ax => ?_
  match ax with
  | ⟨0, _⟩ =>
    show p.val = if a = 1 then 0 else p.val
    split
    · have := p.isLt; omega
    · rfl

/-- The host's spread of a column over b columns reads its entry (p, 0) at every (p, q). -/
theorem colInDim2_apply (w : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h w (ix2 p q) = w (ix2 p (0 : Fin 1)) := by
  refine broadcastInDim_apply ![0, 1] h w (ix2 p q) (ix2 p (0 : Fin 1)) fun ax => ?_
  match ax with
  | ⟨0, _⟩ =>
    show p.val = if a = 1 then 0 else p.val
    split
    · have := p.isLt; omega
    · rfl
  | ⟨1, _⟩ => rfl

/-- Row p with column k put back is (p, k). -/
theorem lift_row (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A vector reduction's row maximum: the fold of max over the row's entries from the accumulator's value. -/
theorem rowMax_vector (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun j => src (ix2 p j)) := by
  refine (Ideal.multiReduction_maximumf_single src acc h hφ hacc (ix1 p)).trans ?_
  have hf : (src ∘ h.lift (ix1 p)) = fun k : Fin b => src (ix2 p k) := funext fun k => congrArg src (lift_row h p k)
  exact congrArg (fun f => Finset.fold max (Ideal.ofBits .f32 acc) f (Finset.univ : Finset (Fin b))) hf

/-- The host's row maximum: the fold of max over the row's entries from the initial value. -/
theorem rowMax_host (x : FVec Ideal ⟨2, ![a, b]⟩ .f32) (init : (⟨0, ![]⟩ : Shape).Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduce FloatOps.maximumf x init h' hu (ix1 p)
      = (Finset.univ : Finset (Fin b)).fold max (init (Shape.Idx.first hu)) (fun j => x (ix2 p j)) := by
  rw [Host.reduce_eq_fold_single FloatOps.maximumf x init h' h hu]
  have hf : (x ∘ h.lift (ix1 p)) = fun k : Fin b => x (ix2 p k) := funext fun k => congrArg x (lift_row h p k)
  exact congrArg (fun f => Finset.fold max (init (Shape.Idx.first hu)) f (Finset.univ : Finset (Fin b))) hf

/-- A vector reduction's row sum. -/
theorem rowSum_vector (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (p : Fin a) :
    multiReduction .add [1] ⟨1, ![a]⟩ src acc h hφ hacc (ix1 p) = ∑ j : Fin b, src (ix2 p j) := by
  refine (Ideal.multiReduction_add_single src acc h hφ hacc (ix1 p)).trans ?_
  exact Finset.sum_congr rfl fun k _ => congrArg src (lift_row h p k)

/-- The host's row sum: the initial value plus the sum of the row's entries. -/
theorem rowSum_host (x : FVec Ideal ⟨2, ![a, b]⟩ .f32) (init : (⟨0, ![]⟩ : Shape).Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduceAdd x init h' hu (ix1 p) = init (Shape.Idx.first hu) + ∑ j : Fin b, x (ix2 p j) := by
  show Ideal.hostReduceAdd h' x (init (Shape.Idx.first hu)) (ix1 p) = _
  rw [Ideal.hostReduceAdd_single h' h]
  exact congrArg (fun s => init (Shape.Idx.first hu) + s) (Finset.sum_congr rfl fun k _ => congrArg x (lift_row h p k))

end Idealize.ShloMosaic.RowOps

end
-- ==== Proof.LibRowSoftmax.lean ====
/-
  A row softmax taken with vector operations, read at an index, over the extended reals.

  For a row s of b extended reals and a float word acc, the row's maximum is the fold of max over its entries
  from the value acc denotes; each entry's weight is exp (s j − maximum) divided by the sum over the row of
  those exponentials. For an a × b matrix S the vector operations compute exactly this, row by row: a
  reduction <maximumf> over the columns, stood up as an a × 1 column and spread back over the b columns, taken
  off S, exponentiated; then a reduction <add> of the exponentials, stood up and spread the same way, dividing
  them. Read at (p, j) the result is the weight of entry j in row p of S.
-/
import proofs.«165802_j90469191123233_2_alg».proof.Proof.LibRowOps

noncomputable section

open scoped BigOperators

namespace Idealize.ShloMosaic.RowSoftmax

open Idealize.ShloMosaic Idealize.ShloMosaic.ValueIdx Idealize.ShloMosaic.RowOps

/-- The largest entry of a row, folded from the value the float word `acc` denotes. -/
def rowMax (acc : BitVec 32) {n : Nat} (s : Fin n → EReal) : EReal :=
  (Finset.univ : Finset (Fin n)).fold max (Ideal.ofBits .f32 acc) s

/-- The exponential of an entry after the row's maximum is taken off. -/
def expo (acc : BitVec 32) {n : Nat} (s : Fin n → EReal) (j : Fin n) : EReal := Ideal.exp (s j - rowMax acc s)

/-- An entry's softmax weight in its row. -/
def weight (acc : BitVec 32) {n : Nat} (s : Fin n → EReal) (j : Fin n) : EReal :=
  Ideal.div (expo acc s j) (∑ k : Fin n, expo acc s k)

/-- The row's maximum is at least the value it was folded from, so taking the larger of the two changes nothing. -/
theorem max_init_rowMax (acc : BitVec 32) {n : Nat} (s : Fin n → EReal) :
    max (Ideal.ofBits .f32 acc) (rowMax acc s) = rowMax acc s :=
  max_eq_right ((Finset.le_fold_max _).mpr (Or.inl le_rfl))

variable {a b : Nat}

/-- The matrix of exponentials exp (S − row maximum), as the vector operations compute it. -/
def expShift (S : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ)
    (hc : (⟨1, ![a]⟩ : Shape).ShapeCasts ⟨2, ![a, 1]⟩) (hb : (⟨2, ![a, 1]⟩ : Shape).Broadcasts ⟨2, ![a, b]⟩) :
    FVec Ideal ⟨2, ![a, b]⟩ .f32 :=
  exp (subf S (broadcastTo ⟨2, ![a, b]⟩
    (shapeCast ⟨2, ![a, 1]⟩ (multiReduction .maximumf [1] ⟨1, ![a]⟩ S acc h hφ hacc) hc) hb))

/-- The row softmax of a matrix, as the vector operations compute it. -/
def softmaxVec (S : FVec Ideal ⟨2, ![a, b]⟩ .f32) (acc zero : BitVec 32)
    (h : (⟨2, ![a, b]⟩ : Shape).Reduces [1] (⟨1, ![a]⟩ : Shape)) (hφ : FKind.Formats .f32)
    (hacc : acc = FKind.maximumf.neutral .f32 hφ) (hzero : zero = FKind.add.neutral .f32 hφ)
    (hc : (⟨1, ![a]⟩ : Shape).ShapeCasts ⟨2, ![a, 1]⟩) (hb : (⟨2, ![a, 1]⟩ : Shape).Broadcasts ⟨2, ![a, b]⟩) :
    FVec Ideal ⟨2, ![a, b]⟩ .f32 :=
  divf (expShift S acc h hφ hacc hc hb) (broadcastTo ⟨2, ![a, b]⟩
    (shapeCast ⟨2, ![a, 1]⟩ (multiReduction .add [1] ⟨1, ![a]⟩ (expShift S acc h hφ hacc hc hb) zero h hφ hzero) hc) hb)

/-- The exponentials at (p, j): exp of entry j of row p less that row's maximum. -/
theorem expShift_apply (S : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ)
    (hc : (⟨1, ![a]⟩ : Shape).ShapeCasts ⟨2, ![a, 1]⟩) (hb : (⟨2, ![a, 1]⟩ : Shape).Broadcasts ⟨2, ![a, b]⟩)
    (p : Fin a) (j : Fin b) :
    expShift S acc h hφ hacc hc hb (ix2 p j) = expo acc (fun k => S (ix2 p k)) j := by
  show Ideal.exp (S (ix2 p j) - broadcastTo ⟨2, ![a, b]⟩
    (shapeCast ⟨2, ![a, 1]⟩ (multiReduction .maximumf [1] ⟨1, ![a]⟩ S acc h hφ hacc) hc) hb (ix2 p j)) = _
  rw [colBcast_apply, colCast_apply, rowMax_vector]
  rfl

/-- The row softmax at (p, j): the weight of entry j in row p. -/
theorem softmaxVec_apply (S : FVec Ideal ⟨2, ![a, b]⟩ .f32) (acc zero : BitVec 32)
    (h : (⟨2, ![a, b]⟩ : Shape).Reduces [1] (⟨1, ![a]⟩ : Shape)) (hφ : FKind.Formats .f32)
    (hacc : acc = FKind.maximumf.neutral .f32 hφ) (hzero : zero = FKind.add.neutral .f32 hφ)
    (hc : (⟨1, ![a]⟩ : Shape).ShapeCasts ⟨2, ![a, 1]⟩) (hb : (⟨2, ![a, 1]⟩ : Shape).Broadcasts ⟨2, ![a, b]⟩)
    (p : Fin a) (j : Fin b) :
    softmaxVec S acc zero h hφ hacc hzero hc hb (ix2 p j) = weight acc (fun k => S (ix2 p k)) j := by
  show Ideal.div (expShift S acc h hφ hacc hc hb (ix2 p j)) (broadcastTo ⟨2, ![a, b]⟩
    (shapeCast ⟨2, ![a, 1]⟩ (multiReduction .add [1] ⟨1, ![a]⟩ (expShift S acc h hφ hacc hc hb) zero h hφ hzero) hc) hb
      (ix2 p j)) = _
  rw [colBcast_apply, colCast_apply, rowSum_vector]
  simp only [expShift_apply]
  rfl

end Idealize.ShloMosaic.RowSoftmax

end
-- ==== Proof.LibHostSoftmax.lean ====
/-
  A row softmax taken with the host's operations, read at an index, over the extended reals.

  For an a × b matrix S the host computes, row by row: the maximum of the row folded from the value a float word
  denotes, joined once more with that value, stood up as an a × 1 column and spread over the b columns, taken off S
  and exponentiated; then the sum of those exponentials from the zero word, stood up and spread the same way,
  dividing them. Read at (p, j) this is the softmax weight of entry j in row p of S: the extra join with the
  starting value changes nothing, since a fold of max is at least the value it starts from.
-/
import proofs.«165802_j90469191123233_2_alg».proof.Proof.LibRowSoftmax
import Idealize.ShloMosaic.Lib.IdealHost

noncomputable section

open scoped BigOperators

namespace Idealize.ShloMosaic.HostSoftmax

open Idealize.ShloMosaic Idealize.ShloMosaic.ValueIdx Idealize.ShloMosaic.RowOps Idealize.ShloMosaic.RowSoftmax

variable {a b : Nat}

/-- The matrix of exponentials exp (S − row maximum), as the host computes it. -/
def expShiftHost (S : FVec Ideal ⟨2, ![a, b]⟩ .f32) (acc : BitVec 32)
    (hr : (⟨2, ![a, b]⟩ : Shape).ReducesTo [1] (⟨1, ![a]⟩ : Shape)) (hu : 0 < (⟨0, ![]⟩ : Shape).numel)
    (h0 : (⟨0, ![]⟩ : Shape).BroadcastsInDim ⟨1, ![a]⟩ ![])
    (hc : (⟨1, ![a]⟩ : Shape).BroadcastsInDim ⟨2, ![a, 1]⟩ ![0])
    (hb : (⟨2, ![a, 1]⟩ : Shape).BroadcastsInDim ⟨2, ![a, b]⟩ ![0, 1]) : FVec Ideal ⟨2, ![a, b]⟩ .f32 :=
  Host.exp (subf S (broadcastInDim ⟨2, ![a, b]⟩ ![0, 1] hb (broadcastInDim ⟨2, ![a, 1]⟩ ![0] hc
    (maximumf (broadcastInDim ⟨1, ![a]⟩ ![] h0 (constant ⟨0, ![]⟩ .f32 acc))
      (Host.reduce FloatOps.maximumf S (constant ⟨0, ![]⟩ .f32 acc) hr hu)))))

/-- The row softmax of a matrix, as the host computes it. -/
def softmaxHost (S : FVec Ideal ⟨2, ![a, b]⟩ .f32) (acc : BitVec 32)
    (hr : (⟨2, ![a, b]⟩ : Shape).ReducesTo [1] (⟨1, ![a]⟩ : Shape)) (hu : 0 < (⟨0, ![]⟩ : Shape).numel)
    (h0 : (⟨0, ![]⟩ : Shape).BroadcastsInDim ⟨1, ![a]⟩ ![])
    (hc : (⟨1, ![a]⟩ : Shape).BroadcastsInDim ⟨2, ![a, 1]⟩ ![0])
    (hb : (⟨2, ![a, 1]⟩ : Shape).BroadcastsInDim ⟨2, ![a, b]⟩ ![0, 1]) : FVec Ideal ⟨2, ![a, b]⟩ .f32 :=
  Host.divf (expShiftHost S acc hr hu h0 hc hb) (broadcastInDim ⟨2, ![a, b]⟩ ![0, 1] hb
    (broadcastInDim ⟨2, ![a, 1]⟩ ![0] hc
      (Host.reduceAdd (expShiftHost S acc hr hu h0 hc hb) (constant ⟨0, ![]⟩ .f32 0x00000000#32) hr hu)))

/-- The exponentials at (p, j): exp of entry j of row p less that row's maximum. -/
theorem expShiftHost_apply (S : FVec Ideal ⟨2, ![a, b]⟩ .f32) (acc : BitVec 32)
    (hr : (⟨2, ![a, b]⟩ : Shape).ReducesTo [1] (⟨1, ![a]⟩ : Shape)) (hu : 0 < (⟨0, ![]⟩ : Shape).numel)
    (h0 : (⟨0, ![]⟩ : Shape).BroadcastsInDim ⟨1, ![a]⟩ ![])
    (hc : (⟨1, ![a]⟩ : Shape).BroadcastsInDim ⟨2, ![a, 1]⟩ ![0])
    (hb : (⟨2, ![a, 1]⟩ : Shape).BroadcastsInDim ⟨2, ![a, b]⟩ ![0, 1])
    (h : (⟨2, ![a, b]⟩ : Shape).Reduces [1] (⟨1, ![a]⟩ : Shape)) (p : Fin a) (j : Fin b) :
    expShiftHost S acc hr hu h0 hc hb (ix2 p j) = expo acc (fun k => S (ix2 p k)) j := by
  show Ideal.exp (S (ix2 p j) - broadcastInDim ⟨2, ![a, b]⟩ ![0, 1] hb (broadcastInDim ⟨2, ![a, 1]⟩ ![0] hc
    (maximumf (broadcastInDim ⟨1, ![a]⟩ ![] h0 (constant ⟨0, ![]⟩ .f32 acc))
      (Host.reduce FloatOps.maximumf S (constant ⟨0, ![]⟩ .f32 acc) hr hu))) (ix2 p j)) = _
  rw [colInDim2_apply, colInDim_apply]
  show Ideal.exp (S (ix2 p j) - max (broadcastInDim ⟨1, ![a]⟩ ![] h0 (constant ⟨0, ![]⟩ .f32 acc) (ix1 p))
      (Host.reduce FloatOps.maximumf S (constant ⟨0, ![]⟩ .f32 acc) hr hu (ix1 p))) = _
  rw [broadcastInDim_scalar_apply, rowMax_host S _ hr h hu p]
  show Ideal.exp (S (ix2 p j) - max (Ideal.ofBits .f32 acc) (rowMax acc fun k => S (ix2 p k))) = _
  rw [max_init_rowMax]
  rfl

/-- The row softmax at (p, j): the weight of entry j in row p. -/
theorem softmaxHost_apply (S : FVec Ideal ⟨2, ![a, b]⟩ .f32) (acc : BitVec 32)
    (hr : (⟨2, ![a, b]⟩ : Shape).ReducesTo [1] (⟨1, ![a]⟩ : Shape)) (hu : 0 < (⟨0, ![]⟩ : Shape).numel)
    (h0 : (⟨0, ![]⟩ : Shape).BroadcastsInDim ⟨1, ![a]⟩ ![])
    (hc : (⟨1, ![a]⟩ : Shape).BroadcastsInDim ⟨2, ![a, 1]⟩ ![0])
    (hb : (⟨2, ![a, 1]⟩ : Shape).BroadcastsInDim ⟨2, ![a, b]⟩ ![0, 1])
    (h : (⟨2, ![a, b]⟩ : Shape).Reduces [1] (⟨1, ![a]⟩ : Shape)) (p : Fin a) (j : Fin b) :
    softmaxHost S acc hr hu h0 hc hb (ix2 p j) = weight acc (fun k => S (ix2 p k)) j := by
  show Ideal.div (expShiftHost S acc hr hu h0 hc hb (ix2 p j)) (broadcastInDim ⟨2, ![a, b]⟩ ![0, 1] hb
    (broadcastInDim ⟨2, ![a, 1]⟩ ![0] hc
      (Host.reduceAdd (expShiftHost S acc hr hu h0 hc hb) (constant ⟨0, ![]⟩ .f32 0x00000000#32) hr hu)) (ix2 p j)) = _
  rw [colInDim2_apply, colInDim_apply, rowSum_host _ _ hr h hu p]
  simp only [expShiftHost_apply S acc hr hu h0 hc hb h]
  show Ideal.div _ (Ideal.ofBits .f32 0x00000000#32 + _) = _
  rw [Ideal.ofBits_zero_f32, zero_add]
  rfl

end Idealize.ShloMosaic.HostSoftmax

end
-- ==== Proof.LibGatherRows.lean ====
/-
  A gather of whole rows, and of single entries, at a column of start indices, read at an index.

  What x[idx] lowers to for an N × D matrix x (or a vector x of N entries) and E integer indices kept as an
  E × 1 column: result row e is the row of x whose number is the index idx[e, 0] read as a signed integer and
  clamped into [0, N − 1].
-/
import Idealize.ShloMosaic.Lib.ValueIdx

noncomputable section

namespace Idealize.ShloMosaic.GatherRows

open Idealize.ShloMosaic Idealize.ShloMosaic.ValueIdx

variable {α : Type}

/-- The dimension numbers of a row gather: operand [N, D], start indices [E, 1], result [E, D]. -/
abbrev rowDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Row e, column q of the gathered rows is x at (the clamped index of e, q). -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (rowDims N D E wf) x idx (ix2 e q)
      = x (ix2 (⟨min (idx (ix2 e (0 : Fin 1))).toInt.toNat (N - 1), by omega⟩ : Fin N) q) := by
  unfold Host.gather
  congr 1
  funext a
  refine Fin.ext ?_
  match a with
  | ⟨0, _⟩ =>
    show (rowDims N D E wf).start (ix2 e q) idx 0 + (rowDims N D E wf).batchCoord (ix2 e q) 0
        + (rowDims N D E wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D E wf).startIndexMap from List.mem_singleton.mpr rfl)]
    have hsi : (rowDims N D E wf).siIdx (ix2 e q) ⟨List.idxOf (0 : Fin 2) (rowDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N D E wf).start (ix2 e q) idx 1 + (rowDims N D E wf).batchCoord (ix2 e q) 1
        + (rowDims N D E wf).offCoord (ix2 e q) 1 = q.val
    rw [GatherDims.batchCoord_eq_zero _ _ _ List.not_mem_nil]
    have hs : (rowDims N D E wf).start (ix2 e q) idx 1 = 0 := by
      unfold GatherDims.start
      rw [dif_neg (show ¬ (1 : Fin 2) ∈ (rowDims N D E wf).startIndexMap from by
        show ¬ (1 : Fin 2) ∈ ([0] : List (Fin 2)); decide)]
    rw [hs]
    simp only [Nat.add_zero, Nat.zero_add]
    unfold GatherDims.offCoord
    rw [dif_pos (show (1 : Fin 2) ∈ (rowDims N D E wf).sKept from
      (GatherDims.mem_sKept _ _).mpr ⟨by show ¬ (1 : Fin 2) ∈ ([0] : List (Fin 2)); decide, List.not_mem_nil⟩)]
    rfl

/-- The dimension numbers of an entry gather: operand [N], start indices [E, 1], result [E]. -/
abbrev entryDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry e of the gathered entries is x at the clamped index of e. -/
theorem gather_entries_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (entryDims N E wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (entryDims N E wf).start (ix1 e) idx 0 + (entryDims N E wf).batchCoord (ix1 e) 0
      + (entryDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entryDims N E wf).startIndexMap from List.mem_singleton.mpr rfl)]
  have hsi : (entryDims N E wf).siIdx (ix1 e) ⟨List.idxOf (0 : Fin 1) (entryDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Idealize.ShloMosaic.GatherRows

end
-- ==== Proof.LibScatterRows.lean ====
/-
  An accumulating scatter of rows, and of single entries, at a column of indices, read at an index, over the
  extended reals.

  What segment_sum lowers to: E update rows (or E update entries) are added into an N × D matrix (a vector of N
  entries) at the row numbers idx[e, 0], read as signed integers and NOT clamped: an update whose index is outside
  [0, N) is dropped. At (p, q) the result is the operand's entry plus the sum over the updates e of
  (the update's entry (e, q) if idx[e, 0] = p, else 0).
-/
import Idealize.ShloMosaic.Lib.ValueIdx
import Idealize.ShloMosaic.PureOps.Ideal.Laws

noncomputable section

open scoped BigOperators

namespace Idealize.ShloMosaic.ScatterRows

open Idealize.ShloMosaic Idealize.ShloMosaic.ValueIdx

/-- The dimension numbers of a row scatter: operand [N, D], scatter indices [E, 1], updates [E, D]. -/
abbrev rowDims (N D E : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section Rows
variable {N D E w : Nat} (wf : ScatterDims.WF ⟨2, ![N, D]⟩ ⟨2, ![E, 1]⟩ ⟨2, ![E, D]⟩ [1] [0] [0] 1)
  (idx : IVec ⟨2, ![E, 1]⟩ w) (e : Fin E) (q' : Fin D)

theorem row_start0 : (rowDims N D E wf).start (ix2 e q') idx 0 = (idx (ix2 e (0 : Fin 1))).toInt := by
  unfold ScatterDims.start
  rw [dif_pos (show (0 : Fin 2) ∈ (rowDims N D E wf).scatterDimsToOperandDims from List.mem_singleton.mpr rfl)]
  have hsi : (rowDims N D E wf).siIdx (ix2 e q') ⟨List.idxOf (0 : Fin 2) (rowDims N D E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem row_start1 : (rowDims N D E wf).start (ix2 e q') idx 1 = 0 := by
  unfold ScatterDims.start
  rw [dif_neg (show ¬ (1 : Fin 2) ∈ (rowDims N D E wf).scatterDimsToOperandDims from by
    show ¬ (1 : Fin 2) ∈ ([0] : List (Fin 2)); decide)]

theorem row_window0 : (rowDims N D E wf).window (ix2 e q') 0 = 0 := by
  unfold ScatterDims.window
  rw [dif_neg (show ¬ (0 : Fin 2) ∈ (rowDims N D E wf).sKept from by
    simp [ScatterDims.sKept, Shape.kept])]

theorem row_window1 : (rowDims N D E wf).window (ix2 e q') 1 = q'.val := by
  unfold ScatterDims.window
  rw [dif_pos (show (1 : Fin 2) ∈ (rowDims N D E wf).sKept from by
    simp [ScatterDims.sKept, Shape.kept])]
  rfl

/-- An update entry (e, q') lands on (p, q) exactly when its row index is p and its column is q. -/
theorem row_resultIdx_iff (p : Fin N) (q : Fin D) :
    (rowDims N D E wf).resultIdx? (ix2 e q') idx = some (ix2 p q)
      ↔ (idx (ix2 e (0 : Fin 1))).toInt = (p.val : Int) ∧ q' = q := by
  unfold ScatterDims.resultIdx?
  constructor
  · intro h
    split at h
    · next hall =>
      have h0 := congrFun (Option.some.inj h) 0
      have h1 := congrFun (Option.some.inj h) 1
      have e0 := congrArg Fin.val h0
      have e1 := congrArg Fin.val h1
      simp only [row_start0, row_start1, row_window0, row_window1] at e0 e1 hall
      have hb := (hall 0).1
      simp only [row_start0, row_window0] at hb
      refine ⟨?_, Fin.ext ?_⟩
      · have : ((idx (ix2 e (0 : Fin 1))).toInt + ((0 : Nat) : Int)).toNat = p.val := e0
        omega
      · have : ((0 : Int) + (q'.val : Int)).toNat = q.val := e1
        omega
    · exact absurd h (by simp)
  · rintro ⟨hp, rfl⟩
    have hall : ∀ a : Fin 2, 0 ≤ (rowDims N D E wf).start (ix2 e q') idx a + ((rowDims N D E wf).window (ix2 e q') a : Int)
        ∧ (rowDims N D E wf).start (ix2 e q') idx a + ((rowDims N D E wf).window (ix2 e q') a : Int)
          < ((⟨2, ![N, D]⟩ : Shape).size a : Int) := by
      intro a
      match a with
      | ⟨0, _⟩ =>
        show 0 ≤ (rowDims N D E wf).start (ix2 e q') idx 0 + ((rowDims N D E wf).window (ix2 e q') 0 : Int)
          ∧ (rowDims N D E wf).start (ix2 e q') idx 0 + ((rowDims N D E wf).window (ix2 e q') 0 : Int) < (N : Int)
        rw [row_start0, row_window0, hp]
        have := p.isLt
        omega
      | ⟨1, _⟩ =>
        show 0 ≤ (rowDims N D E wf).start (ix2 e q') idx 1 + ((rowDims N D E wf).window (ix2 e q') 1 : Int)
          ∧ (rowDims N D E wf).start (ix2 e q') idx 1 + ((rowDims N D E wf).window (ix2 e q') 1 : Int) < (D : Int)
        rw [row_start1, row_window1]
        have := q'.isLt
        omega
    rw [dif_pos hall]
    refine congrArg some (funext fun a => Fin.ext ?_)
    match a with
    | ⟨0, _⟩ =>
      show ((rowDims N D E wf).start (ix2 e q') idx 0 + ((rowDims N D E wf).window (ix2 e q') 0 : Int)).toNat = p.val
      rw [row_start0, row_window0, hp]; omega
    | ⟨1, _⟩ =>
      show ((rowDims N D E wf).start (ix2 e q') idx 1 + ((rowDims N D E wf).window (ix2 e q') 1 : Int)).toNat = q'.val
      rw [row_start1, row_window1]; omega

end Rows

/-- THE ROW SCATTER READ AT (p, q): the operand's entry plus, over the updates e, the entry (e, q) of the updates
    whose row index is p. -/
theorem scatterAdd_rows_apply {N D E w : Nat} (wf : ScatterDims.WF ⟨2, ![N, D]⟩ ⟨2, ![E, 1]⟩ ⟨2, ![E, D]⟩ [1] [0] [0] 1)
    (x : FVec Ideal ⟨2, ![N, D]⟩ .f32) (idx : IVec ⟨2, ![E, 1]⟩ w) (upd : FVec Ideal ⟨2, ![E, D]⟩ .f32)
    (p : Fin N) (q : Fin D) :
    Host.scatterAdd (rowDims N D E wf) x idx upd (ix2 p q)
      = x (ix2 p q) + ∑ e : Fin E, if (idx (ix2 e (0 : Fin 1))).toInt = (p.val : Int) then upd (ix2 e q) else 0 := by
  show Ideal.hostScatterAdd (rowDims N D E wf) x idx upd (ix2 p q) = _
  unfold Ideal.hostScatterAdd
  refine congrArg (x (ix2 p q) + ·) ?_
  rw [Finset.sum_filter, sum_idx2]
  refine Finset.sum_congr rfl fun e _ => ?_
  simp only [row_resultIdx_iff wf idx e _ p q]
  by_cases hp : (idx (ix2 e (0 : Fin 1))).toInt = (p.val : Int)
  · simp only [hp, true_and, if_true]
    rw [Finset.sum_ite_eq' Finset.univ q (fun b => upd (ix2 e b))]
    simp
  · simp only [hp, false_and, if_false, Finset.sum_const_zero]

/-- The dimension numbers of an entry scatter: operand [N], scatter indices [E, 1], updates [E]. -/
abbrev entryDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Entries
variable {N E w : Nat} (wf : ScatterDims.WF ⟨1, ![N]⟩ ⟨2, ![E, 1]⟩ ⟨1, ![E]⟩ [] [0] [0] 1)
  (idx : IVec ⟨2, ![E, 1]⟩ w) (e : Fin E)

theorem entry_start0 : (entryDims N E wf).start (ix1 e) idx 0 = (idx (ix2 e (0 : Fin 1))).toInt := by
  unfold ScatterDims.start
  rw [dif_pos (show (0 : Fin 1) ∈ (entryDims N E wf).scatterDimsToOperandDims from List.mem_singleton.mpr rfl)]
  have hsi : (entryDims N E wf).siIdx (ix1 e) ⟨List.idxOf (0 : Fin 1) (entryDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem entry_window0 : (entryDims N E wf).window (ix1 e) 0 = 0 := by
  unfold ScatterDims.window
  rw [dif_neg (show ¬ (0 : Fin 1) ∈ (entryDims N E wf).sKept from by
    simp [ScatterDims.sKept, Shape.kept])]

/-- An update entry e lands on p exactly when its index is p. -/
theorem entry_resultIdx_iff (p : Fin N) :
    (entryDims N E wf).resultIdx? (ix1 e) idx = some (ix1 p) ↔ (idx (ix2 e (0 : Fin 1))).toInt = (p.val : Int) := by
  unfold ScatterDims.resultIdx?
  constructor
  · intro h
    split at h
    · next hall =>
      have h0 := congrFun (Option.some.inj h) 0
      have e0 := congrArg Fin.val h0
      have hb := (hall 0).1
      simp only [entry_start0, entry_window0] at hb
      have : ((entryDims N E wf).start (ix1 e) idx 0 + ((entryDims N E wf).window (ix1 e) 0 : Int)).toNat = p.val := e0
      rw [entry_start0, entry_window0] at this
      omega
    · exact absurd h (by simp)
  · intro hp
    have hall : ∀ a : Fin 1, 0 ≤ (entryDims N E wf).start (ix1 e) idx a + ((entryDims N E wf).window (ix1 e) a : Int)
        ∧ (entryDims N E wf).start (ix1 e) idx a + ((entryDims N E wf).window (ix1 e) a : Int)
          < ((⟨1, ![N]⟩ : Shape).size a : Int) := by
      intro a
      obtain rfl : a = 0 := Subsingleton.elim _ _
      rw [entry_start0, entry_window0, hp]
      have := p.isLt
      show (0 : Int) ≤ (p.val : Int) + ((0 : Nat) : Int) ∧ (p.val : Int) + ((0 : Nat) : Int) < (N : Int)
      omega
    rw [dif_pos hall]
    refine congrArg some (funext fun a => Fin.ext ?_)
    obtain rfl : a = 0 := Subsingleton.elim _ _
    show ((entryDims N E wf).start (ix1 e) idx 0 + ((entryDims N E wf).window (ix1 e) 0 : Int)).toNat = p.val
    rw [entry_start0, entry_window0, hp]; omega

end Entries

/-- A sum over a rank-1 index is the sum over its coordinate. -/
theorem sum_idx1 {M : Type*} [AddCommMonoid M] {n : Nat} (f : (⟨1, ![n]⟩ : Shape).Idx → M) :
    ∑ i, f i = ∑ a : Fin n, f (ix1 a) := by
  let eqv : (⟨1, ![n]⟩ : Shape).Idx ≃ Fin n :=
    { toFun := fun i => i 0, invFun := fun a => ix1 a, left_inv := fun i => (eq_ix1 i).symm, right_inv := fun _ => rfl }
  rw [← Equiv.sum_comp eqv.symm f]
  rfl

/-- THE ENTRY SCATTER READ AT p: the operand's entry plus, over the updates e, the update whose index is p. -/
theorem scatterAdd_entries_apply {N E w : Nat} (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32) (p : Fin N) :
    Host.scatterAdd (entryDims N E wf) x idx upd (ix1 p)
      = x (ix1 p) + ∑ e : Fin E, if (idx (ix2 e (0 : Fin 1))).toInt = (p.val : Int) then upd (ix1 e) else 0 := by
  show Ideal.hostScatterAdd (entryDims N E wf) x idx upd (ix1 p) = _
  unfold Ideal.hostScatterAdd
  refine congrArg (x (ix1 p) + ·) ?_
  rw [Finset.sum_filter, sum_idx1]
  refine Finset.sum_congr rfl fun e _ => ?_
  simp only [entry_resultIdx_iff wf idx e p]

end Idealize.ShloMosaic.ScatterRows

end
-- ==== Proof.LibConcat3.lean ====
/-
  Three matrices with the same number of rows set side by side, read at an index.

  Entry (e, k) of the joined matrix is the first block's (e, k) for k below its width a, the second block's
  (e, k − a) for the next b columns, and the third block's (e, k − a − b) for the last c.
-/
import Idealize.ShloMosaic.Lib.Pipeline.Value
import Idealize.ShloMosaic.Lib.ValueIdx

noncomputable section

namespace Cert.Concat3

open Idealize.ShloMosaic Idealize.ShloMosaic.ValueIdx

variable {α : Type} {n a b c m : Nat}
  (x₁ : (⟨2, ![n, a]⟩ : Shape).Idx → α) (x₂ : (⟨2, ![n, b]⟩ : Shape).Idx → α) (x₃ : (⟨2, ![n, c]⟩ : Shape).Idx → α)
  (h : Shape.Concatenates [(⟨2, ![n, a]⟩ : Shape), ⟨2, ![n, b]⟩, ⟨2, ![n, c]⟩] ⟨2, ![n, m]⟩ 1)

/-- The first a columns are the first block. -/
theorem left_apply (e : Fin n) (k : Fin a) (hk : k.val < m) :
    concatenate ⟨2, ![n, m]⟩ 1 [⟨⟨2, ![n, a]⟩, x₁⟩, ⟨⟨2, ![n, b]⟩, x₂⟩, ⟨⟨2, ![n, c]⟩, x₃⟩] h (ix2 e ⟨k.val, hk⟩)
      = x₁ (ix2 e k) := by
  refine concatenate_apply_piece (t := ⟨2, ![n, m]⟩) (1 : Fin 2) [⟨⟨2, ![n, a]⟩, x₁⟩, ⟨⟨2, ![n, b]⟩, x₂⟩, ⟨⟨2, ![n, c]⟩, x₃⟩] h _ 0 (by show 0 < 3; omega) _ x₁ rfl rfl 0 rfl (ix2 e k) (fun d hd => ?_) ?_
  · match d with
    | ⟨0, _⟩ => rfl
    | ⟨1, _⟩ => exact absurd rfl hd
  · show 0 + k.val = k.val
    omega

/-- The next b columns are the second block. -/
theorem mid_apply (e : Fin n) (k : Fin b) (hk : a + k.val < m) :
    concatenate ⟨2, ![n, m]⟩ 1 [⟨⟨2, ![n, a]⟩, x₁⟩, ⟨⟨2, ![n, b]⟩, x₂⟩, ⟨⟨2, ![n, c]⟩, x₃⟩] h (ix2 e ⟨a + k.val, hk⟩)
      = x₂ (ix2 e k) := by
  refine concatenate_apply_piece (t := ⟨2, ![n, m]⟩) (1 : Fin 2) [⟨⟨2, ![n, a]⟩, x₁⟩, ⟨⟨2, ![n, b]⟩, x₂⟩, ⟨⟨2, ![n, c]⟩, x₃⟩] h _ 1 (by show 1 < 3; omega) _ x₂ rfl rfl a (by show a + 0 = a; omega) (ix2 e k) (fun d hd => ?_) ?_
  · match d with
    | ⟨0, _⟩ => rfl
    | ⟨1, _⟩ => exact absurd rfl hd
  · rfl

/-- The last c columns are the third block. -/
theorem right_apply (e : Fin n) (k : Fin c) (hk : a + b + k.val < m) :
    concatenate ⟨2, ![n, m]⟩ 1 [⟨⟨2, ![n, a]⟩, x₁⟩, ⟨⟨2, ![n, b]⟩, x₂⟩, ⟨⟨2, ![n, c]⟩, x₃⟩] h (ix2 e ⟨a + b + k.val, hk⟩)
      = x₃ (ix2 e k) := by
  refine concatenate_apply_piece (t := ⟨2, ![n, m]⟩) (1 : Fin 2) [⟨⟨2, ![n, a]⟩, x₁⟩, ⟨⟨2, ![n, b]⟩, x₂⟩, ⟨⟨2, ![n, c]⟩, x₃⟩] h _ 2 (by show 2 < 3; omega) _ x₃ rfl rfl (a + b) (by show a + (b + 0) = a + b; omega) (ix2 e k) (fun d hd => ?_) ?_
  · match d with
    | ⟨0, _⟩ => rfl
    | ⟨1, _⟩ => exact absurd rfl hd
  · rfl

end Cert.Concat3

end
-- ==== Proof.LibSegmentLaw.lean ====
/-
  Three small laws used when a sum over the edges landing on one node is pushed through a linear map.

  1. A sum over the selected edges of a linear map of per-edge data equals the linear map applied to the
     summed data; a part that is constant on the selected edges and the bias pick up the number of selected
     edges as a factor. All entries are real numbers, so both sides are the image of one real number and the
     identity is plain distributivity in the reals (distributivity fails in the extended reals in general).
  2. A sum over `a + b + c` consecutive indices splits into the three consecutive blocks.
  3. The 32-bit pattern `0x3F800000` denotes the extended real `1`.
-/
import Idealize.ShloMosaic.PureOps.Ideal
import Mathlib.Tactic

noncomputable section

namespace Cert.SegmentLaw

open Idealize.ShloMosaic
open scoped BigOperators

/-- A finite sum of real numbers, taken in the extended reals, is the image of the real sum. -/
theorem coe_finset_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A guarded real, taken in the extended reals, is the image of the guarded real. -/
theorem ite_coe (p : Prop) [Decidable p] (x : ℝ) :
    (if p then ((x : ℝ) : EReal) else 0) = ((if p then x else 0 : ℝ) : EReal) := by
  split_ifs <;> simp

/-- The indicator of a condition, taken in the extended reals, is the image of the real indicator. -/
theorem ite_one (p : Prop) [Decidable p] :
    (if p then (1 : EReal) else 0) = ((if p then (1 : ℝ) else 0 : ℝ) : EReal) := by
  split_ifs <;> simp

/-- In the reals: summing the selected rows first and then pairing with `w` is the same as pairing each
    selected row with `w` and then summing. -/
theorem real_bilin {ι κ : Type*} [Fintype ι] [Fintype κ] (c : ι → Prop) [DecidablePred c]
    (a : ι → κ → ℝ) (w : κ → ℝ) :
    ∑ k, (∑ e, if c e then a e k else 0) * w k = ∑ e, if c e then ∑ k, a e k * w k else 0 := by
  simp only [Finset.sum_mul]
  rw [Finset.sum_comm]
  refine Finset.sum_congr rfl (fun e _ => ?_)
  split_ifs <;> simp

/-- In the reals: the number of selected indices times `x` is the sum of `x` over the selected indices. -/
theorem real_count {ι : Type*} [Fintype ι] (c : ι → Prop) [DecidablePred c] (x : ℝ) :
    (∑ e, if c e then (1 : ℝ) else 0) * x = ∑ e, if c e then x else 0 := by
  rw [Finset.sum_mul]
  refine Finset.sum_congr rfl (fun e _ => ?_)
  split_ifs <;> simp

/-- The law in the reals. -/
theorem real_segment_linear {ι κ₁ κ₂ κ₃ : Type*} [Fintype ι] [Fintype κ₁] [Fintype κ₂] [Fintype κ₃]
    (c : ι → Prop) [DecidablePred c]
    (a : ι → κ₁ → ℝ) (w₁ : κ₁ → ℝ) (g : ι → κ₂ → ℝ) (b : κ₂ → ℝ) (w₂ : κ₂ → ℝ) (r : ι → κ₃ → ℝ)
    (w₃ : κ₃ → ℝ) (β : ℝ) (hg : ∀ e, c e → g e = b) :
    (((∑ k, (∑ e, if c e then a e k else 0) * w₁ k)
        + (∑ e, if c e then (1 : ℝ) else 0) * (∑ k, b k * w₂ k))
        + ∑ k, (∑ e, if c e then r e k else 0) * w₃ k)
        + (∑ e, if c e then (1 : ℝ) else 0) * β
    = ∑ e, if c e then ((((∑ k, a e k * w₁ k) + ∑ k, g e k * w₂ k) + ∑ k, r e k * w₃ k) + β) else 0 := by
  rw [real_bilin, real_bilin, real_count, real_count, ← Finset.sum_add_distrib, ← Finset.sum_add_distrib,
    ← Finset.sum_add_distrib]
  refine Finset.sum_congr rfl (fun e _ => ?_)
  split_ifs with h
  · rw [hg e h]
  · simp

/-- A sum over the selected edges of a linear map of per-edge data is the linear map of the summed data; the
    part that is constant on the selected edges and the bias are multiplied by the number of selected edges. -/
theorem segment_linear {ι κ₁ κ₂ κ₃ : Type*} [Fintype ι] [Fintype κ₁] [Fintype κ₂] [Fintype κ₃]
    (c : ι → Prop) [DecidablePred c]
    (a : ι → κ₁ → ℝ) (w₁ : κ₁ → ℝ) (g : ι → κ₂ → ℝ) (b : κ₂ → ℝ) (w₂ : κ₂ → ℝ) (r : ι → κ₃ → ℝ)
    (w₃ : κ₃ → ℝ) (β : ℝ) (hg : ∀ e, c e → g e = b) :
    (((∑ k, (∑ e, if c e then ((a e k : ℝ) : EReal) else 0) * ((w₁ k : ℝ) : EReal))
        + (∑ e, if c e then (1 : EReal) else 0) * (∑ k, ((b k : ℝ) : EReal) * ((w₂ k : ℝ) : EReal)))
        + ∑ k, (∑ e, if c e then ((r e k : ℝ) : EReal) else 0) * ((w₃ k : ℝ) : EReal))
        + (∑ e, if c e then (1 : EReal) else 0) * ((β : ℝ) : EReal)
    = ∑ e, if c e then ((((∑ k, ((a e k : ℝ) : EReal) * ((w₁ k : ℝ) : EReal)) + ∑ k, ((g e k : ℝ) : EReal) * ((w₂ k : ℝ) : EReal))
        + ∑ k, ((r e k : ℝ) : EReal) * ((w₃ k : ℝ) : EReal)) + ((β : ℝ) : EReal)) else 0 := by
  simp only [ite_coe, ite_one, ← EReal.coe_mul, ← EReal.coe_add, coe_finset_sum]
  rw [real_segment_linear c a w₁ g b w₂ r w₃ β hg]

/-- A sum over `a + b + c` consecutive indices is the sum of the three consecutive blocks. -/
theorem sum_split3 {M : Type*} [AddCommMonoid M] (a b c n : ℕ) (h : n = a + b + c) (f : Fin n → M) :
    ∑ k, f k = (∑ k : Fin a, f ⟨k.val, by omega⟩ + ∑ k : Fin b, f ⟨a + k.val, by omega⟩) + ∑ k : Fin c, f ⟨a + b + k.val, by omega⟩ := by
  subst h
  rw [Fin.sum_univ_add, Fin.sum_univ_add]
  rfl

/-- The 32-bit pattern of `1.0` denotes the extended real `1`: sign 0, exponent field 127, fraction 0. -/
theorem ofBits_one_f32 : Ideal.ofBits .f32 0x3F800000#32 = (1 : EReal) := by
  simp [Ideal.ofBits, Ideal.ieee, -EReal.coe_mul]; norm_num

end Cert.SegmentLaw

end
-- ==== Proof.NodeModel.lean ====
/-
  The node model of the interaction network, on one node's row of data, over the extended reals.

  For one receiver node: the aggregated relation effect is an affine image of the summed sender states s1, the
  node's own state o counted once per incoming edge (d of them), the summed relation attributes s3 and d times the
  bias; the hidden state is an affine image of the node's state, its external input x and that effect; the class
  scores are an affine image of the hidden state; the output is the softmax weight of each class score.
-/
import proofs.«165802_j90469191123233_2_alg».proof.Proof.LibRowSoftmax

noncomputable section

open scoped BigOperators

namespace Cert.NodeModel

open Idealize.ShloMosaic Idealize.ShloMosaic.RowSoftmax

/-- The aggregated effect on a node from the sums over its incoming edges:
    s1 · W1 + d · (o · W2) + s3 · W3 + d · b. -/
def effectRow (s1 o : Fin 64 → EReal) (s3 : Fin 16 → EReal) (d : EReal)
    (w1 w2 : Fin 64 → Fin 64 → EReal) (w3 : Fin 16 → Fin 64 → EReal) (br : Fin 64 → EReal) (j : Fin 64) : EReal :=
  ((∑ k : Fin 64, s1 k * w1 k j + d * ∑ k : Fin 64, o k * w2 k j) + ∑ k : Fin 16, s3 k * w3 k j) + d * br j

/-- The hidden state of a node: o · Wo1 + x · Wo2 + effect · Wo3 + b. -/
def hiddenRow (o : Fin 64 → EReal) (x : Fin 16 → EReal) (eh : Fin 64 → EReal)
    (wo1 : Fin 64 → Fin 64 → EReal) (wo2 : Fin 16 → Fin 64 → EReal) (wo3 : Fin 64 → Fin 64 → EReal)
    (bo : Fin 64 → EReal) (j : Fin 64) : EReal :=
  ((∑ k : Fin 64, o k * wo1 k j + ∑ k : Fin 16, x k * wo2 k j) + ∑ k : Fin 64, eh k * wo3 k j) + bo j

/-- The class scores of a node: hidden · Ws + b. -/
def scoreRow (h : Fin 64 → EReal) (ws : Fin 64 → Fin 10 → EReal) (bs : Fin 10 → EReal) (c : Fin 10) : EReal :=
  ∑ j : Fin 64, h j * ws j c + bs c

/-- The class probabilities of a node: the softmax weights of its scores. -/
def probRow (sc : Fin 10 → EReal) (c : Fin 10) : EReal := weight 0xFF800000#32 sc c

end Cert.NodeModel

end
-- ==== Proof.RefModel.lean ====
/-
  The interaction network as one function of its eleven arguments, index by index, over the extended reals.

  Node states O (50000 × 64), external inputs X (50000 × 16), relation attributes R (800000 × 16), sender and receiver
  index words per edge, relation weights Wr (144 × 64) and bias br, object weights Wo (144 × 64) and bias bo, class
  weights Ws (64 × 10) and bias bs. Each edge e carries the effect [O[s e], O[r e], R[e]] · Wr + br, where a node row is
  read at the edge's index word, a negative word counted from the end and the result clamped into the table; the
  effects of the edges whose receiver word is p are summed onto node p; the node's hidden state is
  [O[p], X[p], effect p] · Wo + bo, its scores hidden · Ws + bs, and the output its softmax weights.
-/
import proofs.«165802_j90469191123233_2_alg».proof.Proof.NodeModel
import Idealize.ShloMosaic.Lib.ValueIdx

noncomputable section

open scoped BigOperators

namespace Cert.RefModel

open Idealize.ShloMosaic Idealize.ShloMosaic.ValueIdx Cert.NodeModel

abbrev Mat (a b : Nat) : Type := (⟨2, ![a, b]⟩ : Shape).Idx → EReal
abbrev Arr (a : Nat) : Type := (⟨1, ![a]⟩ : Shape).Idx → EReal
abbrev Words (a : Nat) : Type := (⟨1, ![a]⟩ : Shape).Idx → BitVec 32

/-- An index word into an axis of 50000 entries, a negative one counted from the end. -/
def norm (s : BitVec 32) : BitVec 32 := Scalar.select (IntOp.cmpi .slt s 0#32) (IntOp.addi s 50000#32) s

/-- The row of the node table a gather reads at the index word w: w read signed, clamped into the table. -/
def rowOf (w : BitVec 32) : Fin 50000 := ⟨min w.toInt.toNat (50000 - 1), by omega⟩

/-- The effect carried by edge e, component j. -/
def edgeRow (O : Mat 50000 64) (R : Mat 800000 16) (snd rcv : Words 800000) (Wr : Mat 144 64) (br : Arr 64)
    (e : Fin 800000) (j : Fin 64) : EReal :=
  ((∑ k : Fin 64, O (ix2 (rowOf (norm (snd (ix1 e)))) k) * Wr (ix2 (⟨k.val, by omega⟩ : Fin 144) j)
      + ∑ k : Fin 64, O (ix2 (rowOf (norm (rcv (ix1 e)))) k) * Wr (ix2 (⟨64 + k.val, by omega⟩ : Fin 144) j))
    + ∑ k : Fin 16, R (ix2 e k) * Wr (ix2 (⟨64 + 64 + k.val, by omega⟩ : Fin 144) j)) + br (ix1 j)

/-- The effects of the edges received by node p, summed, component j. -/
def refEffect (O : Mat 50000 64) (R : Mat 800000 16) (snd rcv : Words 800000) (Wr : Mat 144 64) (br : Arr 64)
    (p : Fin 50000) (j : Fin 64) : EReal :=
  ∑ e : Fin 800000, if (rcv (ix1 e)).toInt = (p.val : Int) then edgeRow O R snd rcv Wr br e j else 0

/-- The class probabilities of node p. -/
def refOutAt (O : Mat 50000 64) (X : Mat 50000 16) (R : Mat 800000 16) (snd rcv : Words 800000) (Wr : Mat 144 64)
    (br : Arr 64) (Wo : Mat 144 64) (bo : Arr 64) (Ws : Mat 64 10) (bs : Arr 10) (p : Fin 50000) (c : Fin 10) : EReal :=
  probRow (scoreRow (hiddenRow (fun k => O (ix2 p k)) (fun k => X (ix2 p k)) (refEffect O R snd rcv Wr br p)
      (fun k j => Wo (ix2 (⟨k.val, by omega⟩ : Fin 144) j)) (fun k j => Wo (ix2 (⟨64 + k.val, by omega⟩ : Fin 144) j))
      (fun k j => Wo (ix2 (⟨64 + 16 + k.val, by omega⟩ : Fin 144) j)) (fun j => bo (ix1 j)))
    (fun j c => Ws (ix2 j c)) (fun c => bs (ix1 c))) c

/-- The whole output array. -/
def refOut (O : Mat 50000 64) (X : Mat 50000 16) (R : Mat 800000 16) (snd rcv : Words 800000) (Wr : Mat 144 64)
    (br : Arr 64) (Wo : Mat 144 64) (bo : Arr 64) (Ws : Mat 64 10) (bs : Arr 10) : Mat 50000 10 :=
  fun i => refOutAt O X R snd rcv Wr br Wo bo Ws bs (i 0) (i 1)

end Cert.RefModel

end
-- ==== Proof.RefRead.lean ====
/-
  The reference program read at an index: its result array is the interaction network's output function of the
  eleven arguments.

  Each gather reads a row of the node table at the edge's index word (a negative word counted from the end, the
  result clamped); the three pieces set side by side and multiplied by the relation weights are three partial sums
  over the 64 + 64 + 16 rows of those weights; the accumulating scatter sums the edges' rows by receiver word from a
  zero table; the second concatenation and product split the same way over 64 + 16 + 64; the last steps are the row
  softmax in the host's spelling.
-/
import proofs.«165802_j90469191123233_2_alg».proof.Proof.Gen.ReferenceIdeal.Read
import proofs.«165802_j90469191123233_2_alg».proof.Proof.LibHostSoftmax
import proofs.«165802_j90469191123233_2_alg».proof.Proof.LibGatherRows
import proofs.«165802_j90469191123233_2_alg».proof.Proof.LibScatterRows
import proofs.«165802_j90469191123233_2_alg».proof.Proof.LibConcat3
import proofs.«165802_j90469191123233_2_alg».proof.Proof.LibSegmentLaw
import proofs.«165802_j90469191123233_2_alg».proof.Proof.RefModel

noncomputable section

open scoped BigOperators

namespace Cert.RefRead

open Cert.ReferenceIdeal Cert.ReferenceIdeal.Read Idealize.ShloMosaic Idealize.ShloMosaic.ValueIdx
open Cert.NodeModel Cert.RefModel Cert.SegmentLaw Cert.ReferenceIdeal.Facts₀ Cert.ReferenceIdeal.Facts

variable (x0 : FVec Ideal S50000x64 .f32) (x1 : FVec Ideal S50000x16 .f32) (x2 : FVec Ideal S800000x16 .f32)
  (x3 x4 : IVec S800000 32) (x5 : FVec Ideal S144x64 .f32) (x6 : FVec Ideal S64 .f32) (x7 : FVec Ideal S144x64 .f32)
  (x8 : FVec Ideal S64 .f32) (x9 : FVec Ideal S64x10 .f32) (x10 : FVec Ideal S10 .f32)

/-- The sender index column at edge e is the sender word, a negative one counted from the end. -/
theorem v5_at (e : Fin 800000) : val_main_v5 (F := Ideal) x3 (ix2 e (0 : Fin 1)) = norm (x3 (ix1 e)) := by
  rw [val_main_v5_apply]
  have h : idx_main_v5 (ix2 e (0 : Fin 1)) = ix1 e := funext fun a => Fin.ext (by match a with | ⟨0, _⟩ => rfl)
  rw [h]
  rfl

/-- The receiver index column used by the gather, likewise. -/
theorem v12_at (e : Fin 800000) : val_main_v12 (F := Ideal) x4 (ix2 e (0 : Fin 1)) = norm (x4 (ix1 e)) := by
  rw [val_main_v12_apply]
  have h : idx_main_v12 (ix2 e (0 : Fin 1)) = ix1 e := funext fun a => Fin.ext (by match a with | ⟨0, _⟩ => rfl)
  rw [h]
  rfl

/-- The receiver index column used by the scatter is the receiver word itself. -/
theorem v20_at (e : Fin 800000) : val_main_v20 (F := Ideal) x4 (ix2 e (0 : Fin 1)) = x4 (ix1 e) := by
  rw [val_main_v20_apply]
  exact congrArg x4 (funext fun a => Fin.ext (by match a with | ⟨0, _⟩ => rfl))

/-- The gathered sender states. -/
theorem v6_at (e : Fin 800000) (k : Fin 64) :
    val_main_v6 (F := Ideal) x0 x3 (ix2 e k) = x0 (ix2 (rowOf (norm (x3 (ix1 e)))) k) := by
  refine (GatherRows.gather_rows_apply (N := 50000) (D := 64) (E := 800000) (by decide)
    gather_S50000x64_S800000x1_S800000x64_1_0_n_n_0_1_164.wf x0 (val_main_v5 (F := Ideal) x3) e k).trans ?_
  exact congrArg (fun w => x0 (ix2 (rowOf w) k)) (v5_at x3 e)

/-- The gathered receiver states. -/
theorem v13_at (e : Fin 800000) (k : Fin 64) :
    val_main_v13 (F := Ideal) x0 x4 (ix2 e k) = x0 (ix2 (rowOf (norm (x4 (ix1 e)))) k) := by
  refine (GatherRows.gather_rows_apply (N := 50000) (D := 64) (E := 800000) (by decide)
    gather_S50000x64_S800000x1_S800000x64_1_0_n_n_0_1_164.wf x0 (val_main_v12 (F := Ideal) x4) e k).trans ?_
  exact congrArg (fun w => x0 (ix2 (rowOf w) k)) (v12_at x4 e)

/-- The per-edge product with the relation weights, as three partial sums. -/
theorem v15_at (e : Fin 800000) (j : Fin 64) :
    val_main_v15 (F := Ideal) x0 x2 x3 x4 x5 (ix2 e j)
      = (∑ k : Fin 64, x0 (ix2 (rowOf (norm (x3 (ix1 e)))) k) * x5 (ix2 (⟨k.val, by omega⟩ : Fin 144) j)
          + ∑ k : Fin 64, x0 (ix2 (rowOf (norm (x4 (ix1 e)))) k) * x5 (ix2 (⟨64 + k.val, by omega⟩ : Fin 144) j))
        + ∑ k : Fin 16, x2 (ix2 e k) * x5 (ix2 (⟨64 + 64 + k.val, by omega⟩ : Fin 144) j) := by
  have hl : ∀ κ : Fin 144, lidx_main_v15 (ix2 e j) κ = ix2 e κ := fun κ =>
    funext fun a => Fin.ext (by match a with | ⟨0, _⟩ => rfl | ⟨1, _⟩ => rfl)
  rw [val_main_v15_apply, sum_split3 64 64 16 144 rfl]
  simp only [hl]
  unfold val_main_v14
  refine congrArg₂ (· + ·) (congrArg₂ (· + ·) ?_ ?_) ?_
  · refine Finset.sum_congr rfl fun k _ => ?_
    refine congrArg₂ (· * ·) ?_ (congrArg x5 (funext fun a => Fin.ext (by match a with | ⟨0, _⟩ => rfl | ⟨1, _⟩ => rfl)))
    refine (Concat3.left_apply (val_main_v6 (F := Ideal) x0 x3) (val_main_v13 (F := Ideal) x0 x4) x2
      concatenates_S800000x64_S800000x64_S800000x16_S800000x144_d1 e k (by omega)).trans ?_
    exact v6_at x0 x3 e k
  · refine Finset.sum_congr rfl fun k _ => ?_
    refine congrArg₂ (· * ·) ?_ (congrArg x5 (funext fun a => Fin.ext (by match a with | ⟨0, _⟩ => rfl | ⟨1, _⟩ => rfl)))
    refine (Concat3.mid_apply (val_main_v6 (F := Ideal) x0 x3) (val_main_v13 (F := Ideal) x0 x4) x2
      concatenates_S800000x64_S800000x64_S800000x16_S800000x144_d1 e k (by omega)).trans ?_
    exact v13_at x0 x4 e k
  · refine Finset.sum_congr rfl fun k _ => ?_
    refine congrArg₂ (· * ·) ?_ (congrArg x5 (funext fun a => Fin.ext (by match a with | ⟨0, _⟩ => rfl | ⟨1, _⟩ => rfl)))
    exact Concat3.right_apply (val_main_v6 (F := Ideal) x0 x3) (val_main_v13 (F := Ideal) x0 x4) x2
      concatenates_S800000x64_S800000x64_S800000x16_S800000x144_d1 e k (by omega)

/-- The effect carried by edge e. -/
theorem v18_at (e : Fin 800000) (j : Fin 64) :
    val_main_v18 (F := Ideal) x0 x2 x3 x4 x5 x6 (ix2 e j) = edgeRow x0 x2 x3 x4 x5 x6 e j := by
  rw [val_main_v18_apply, v15_at, val_main_v17_apply, val_main_v16_apply]
  unfold edgeRow
  refine congrArg (_ + ·) (congrArg x6 (funext fun a => Fin.ext (by match a with | ⟨0, _⟩ => rfl)))

/-- The effects summed by receiver. -/
theorem v21_at (p : Fin 50000) (j : Fin 64) :
    val_main_v21 (F := Ideal) x0 x2 x3 x4 x5 x6 (ix2 p j) = refEffect x0 x2 x3 x4 x5 x6 p j := by
  refine (ScatterRows.scatterAdd_rows_apply (N := 50000) (D := 64) (E := 800000)
    scatter_S50000x64_S800000x1_S800000x64_1_0_0_1.wf (val_main_v19 (F := Ideal)) (val_main_v20 (F := Ideal) x4)
    (val_main_v18 (F := Ideal) x0 x2 x3 x4 x5 x6) p j).trans ?_
  have hz : val_main_v19 (F := Ideal) (ix2 p j) = (0 : EReal) := Ideal.ofBits_zero_f32
  rw [hz, zero_add]
  unfold refEffect
  refine Finset.sum_congr rfl fun e _ => ?_
  rw [v20_at, v18_at]

/-- The hidden layer's product with the object weights, as three partial sums. -/
theorem v23_at (p : Fin 50000) (j : Fin 64) :
    val_main_v23 (F := Ideal) x0 x1 x2 x3 x4 x5 x6 x7 (ix2 p j)
      = (∑ k : Fin 64, x0 (ix2 p k) * x7 (ix2 (⟨k.val, by omega⟩ : Fin 144) j)
          + ∑ k : Fin 16, x1 (ix2 p k) * x7 (ix2 (⟨64 + k.val, by omega⟩ : Fin 144) j))
        + ∑ k : Fin 64, refEffect x0 x2 x3 x4 x5 x6 p k * x7 (ix2 (⟨64 + 16 + k.val, by omega⟩ : Fin 144) j) := by
  have hl : ∀ κ : Fin 144, lidx_main_v23 (ix2 p j) κ = ix2 p κ := fun κ =>
    funext fun a => Fin.ext (by match a with | ⟨0, _⟩ => rfl | ⟨1, _⟩ => rfl)
  rw [val_main_v23_apply, sum_split3 64 16 64 144 rfl]
  simp only [hl]
  unfold val_main_v22
  refine congrArg₂ (· + ·) (congrArg₂ (· + ·) ?_ ?_) ?_
  · refine Finset.sum_congr rfl fun k _ => ?_
    refine congrArg₂ (· * ·) ?_ (congrArg x7 (funext fun a => Fin.ext (by match a with | ⟨0, _⟩ => rfl | ⟨1, _⟩ => rfl)))
    exact Concat3.left_apply x0 x1 (val_main_v21 (F := Ideal) x0 x2 x3 x4 x5 x6)
      concatenates_S50000x64_S50000x16_S50000x64_S50000x144_d1 p k (by omega)
  · refine Finset.sum_congr rfl fun k _ => ?_
    refine congrArg₂ (· * ·) ?_ (congrArg x7 (funext fun a => Fin.ext (by match a with | ⟨0, _⟩ => rfl | ⟨1, _⟩ => rfl)))
    exact Concat3.mid_apply x0 x1 (val_main_v21 (F := Ideal) x0 x2 x3 x4 x5 x6)
      concatenates_S50000x64_S50000x16_S50000x64_S50000x144_d1 p k (by omega)
  · refine Finset.sum_congr rfl fun k _ => ?_
    refine congrArg₂ (· * ·) ?_ (congrArg x7 (funext fun a => Fin.ext (by match a with | ⟨0, _⟩ => rfl | ⟨1, _⟩ => rfl)))
    refine (Concat3.right_apply x0 x1 (val_main_v21 (F := Ideal) x0 x2 x3 x4 x5 x6)
      concatenates_S50000x64_S50000x16_S50000x64_S50000x144_d1 p k (by omega)).trans ?_
    exact v21_at x0 x2 x3 x4 x5 x6 p k

set_option maxRecDepth 100000 in
/-- The hidden state of node p. -/
theorem v26_at (p : Fin 50000) (j : Fin 64) :
    val_main_v26 (F := Ideal) x0 x1 x2 x3 x4 x5 x6 x7 x8 (ix2 p j)
      = hiddenRow (fun k => x0 (ix2 p k)) (fun k => x1 (ix2 p k)) (refEffect x0 x2 x3 x4 x5 x6 p)
          (fun k j => x7 (ix2 (⟨k.val, by omega⟩ : Fin 144) j)) (fun k j => x7 (ix2 (⟨64 + k.val, by omega⟩ : Fin 144) j))
          (fun k j => x7 (ix2 (⟨64 + 16 + k.val, by omega⟩ : Fin 144) j)) (fun j => x8 (ix1 j)) j := by
  rw [val_main_v26_apply, v23_at, val_main_v25_apply, val_main_v24_apply]
  have e8 : x8 (idx_main_v24 (idx_main_v25 (ix2 p j))) = x8 (ix1 j) :=
    congrArg x8 (funext fun a => Fin.ext (by match a with | ⟨0, _⟩ => rfl))
  rw [e8]
  rfl

set_option maxRecDepth 100000 in
/-- The class scores of node p. -/
theorem v30_at (p : Fin 50000) (c : Fin 10) :
    val_main_v30 (F := Ideal) x0 x1 x2 x3 x4 x5 x6 x7 x8 x9 x10 (ix2 p c)
      = scoreRow (hiddenRow (fun k => x0 (ix2 p k)) (fun k => x1 (ix2 p k)) (refEffect x0 x2 x3 x4 x5 x6 p)
          (fun k j => x7 (ix2 (⟨k.val, by omega⟩ : Fin 144) j)) (fun k j => x7 (ix2 (⟨64 + k.val, by omega⟩ : Fin 144) j))
          (fun k j => x7 (ix2 (⟨64 + 16 + k.val, by omega⟩ : Fin 144) j)) (fun j => x8 (ix1 j)))
          (fun j c => x9 (ix2 j c)) (fun c => x10 (ix1 c)) c := by
  rw [val_main_v30_apply, val_main_v27_apply, val_main_v29_apply, val_main_v28_apply]
  show (∑ j : Fin 64, _) + _ = (∑ j : Fin 64, _) + _
  refine congrArg₂ (· + ·) (Finset.sum_congr rfl fun j _ => ?_)
    (congrArg x10 (funext fun a => Fin.ext (by match a with | ⟨0, _⟩ => rfl)))
  refine congrArg₂ (· * ·) ?_ (congrArg x9 (funext fun a => Fin.ext (by match a with | ⟨0, _⟩ => rfl | ⟨1, _⟩ => rfl)))
  have hl : lidx_main_v27 (ix2 p c) j = ix2 p j :=
    funext fun a => Fin.ext (by match a with | ⟨0, _⟩ => rfl | ⟨1, _⟩ => rfl)
  rw [hl]
  exact v26_at x0 x1 x2 x3 x4 x5 x6 x7 x8 p j

set_option maxRecDepth 100000 in
/-- THE REFERENCE'S RESULT is the network's output function of the arguments. -/
theorem result_eq :
    val_main_v41 (F := Ideal) x0 x1 x2 x3 x4 x5 x6 x7 x8 x9 x10 = refOut x0 x1 x2 x3 x4 x5 x6 x7 x8 x9 x10 := by
  funext i
  obtain ⟨p, c, rfl⟩ : ∃ (p : Fin 50000) (c : Fin 10), i = ix2 p c := ⟨i 0, i 1, eq_ix2 i⟩
  refine (HostSoftmax.softmaxHost_apply (a := 50000) (b := 10)
    (val_main_v30 (F := Ideal) x0 x1 x2 x3 x4 x5 x6 x7 x8 x9 x10) 0xFF800000#32
    reducesTo_S50000x10_S50000_d1 h_S_ bcast_S_S50000 bcast_S50000_S50000x1_0 bcast_S50000x1_S50000x10_0_1
    (by decide) p c).trans ?_
  show RowSoftmax.weight _ _ c = RowSoftmax.weight _ _ c
  refine congrArg (fun s => RowSoftmax.weight 0xFF800000#32 s c) (funext fun c' => ?_)
  exact v30_at x0 x1 x2 x3 x4 x5 x6 x7 x8 x9 x10 p c'

end Cert.RefRead

end
-- ==== Proof.LibPlainDot.lean ====
/-
  A plain matrix product read at an index, over the extended reals.

  For the dimension numbers of an M×K by K×N product (contract the left operand's second axis with the
  right operand's first; no batch axes) the entry (i, j) of the product is the sum over k of
  lhs (i, k) · rhs (k, j): stated once for a `tpu.matmul` accumulating into the zero splat and once for
  the host's `dot_general`, for any extents M, K, N. The contraction index of such a product has one
  axis of extent K, and the sum over it is re-indexed by that coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {M K N : Nat}

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, show 0 < (DotDims.plain M K N).contr.rank from Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, show 0 < (DotDims.plain M K N).contr.rank from Nat.one_pos⟩).val :=
  (DotDims.plain M K N).rhsIdx_val_of_single rfl j q

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index of a plain product is the sum over k of lhs (i, k) · rhs (k, j). -/
theorem sum_contr (lhs : (⟨2, ![M, K]⟩ : Shape).Idx → EReal) (rhs : (⟨2, ![K, N]⟩ : Shape).Idx → EReal)
    (i : Fin M) (j : Fin N) :
    (∑ q : (DotDims.plain M K N).contr.Idx,
        lhs ((DotDims.plain M K N).lhsIdx (ix2 i j) q) * rhs ((DotDims.plain M K N).rhsIdx (ix2 i j) q))
      = ∑ k : Fin K, lhs (ix2 i k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

/-- A `tpu.matmul` of plain dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_contr lhs rhs i j)

/-- The host's `dot_general` of plain dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) :=
  (Ideal.dotGeneral_apply (DotDims.plain M K N) prec sched lhs rhs (ix2 i j)).trans (sum_contr lhs rhs i j)

end Idealize.ShloMosaic.PlainDot

end
-- ==== Proof.LibRowSpread.lean ====
/-
  A one-row matrix spread over many rows, and a scalar spread over an array, read at an index.

  A 1 × b matrix broadcast to a × b reads its entry (0, q) at every (p, q), whether the broadcast is the vector
  one or the host's broadcast in dimensions [0, 1]; a rank-0 array broadcast in no dimensions reads its one entry
  everywhere.
-/
import Idealize.ShloMosaic.Lib.Pipeline.Value
import Idealize.ShloMosaic.Lib.ValueIdx

noncomputable section

namespace Idealize.ShloMosaic.RowSpread

open Idealize.ShloMosaic Idealize.ShloMosaic.ValueIdx

variable {a b : Nat} {α : Type}

/-- A row spread over a rows by the vector broadcast reads its entry (0, q) at every (p, q). -/
theorem rowBcast_apply (v : (⟨2, ![1, b]⟩ : Shape).Idx → α) (h : (⟨2, ![1, b]⟩ : Shape).Broadcasts ⟨2, ![a, b]⟩)
    (p : Fin a) (q : Fin b) : broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- The host's spread of a row over a rows reads its entry (0, q) at every (p, q). -/
theorem rowInDim2_apply (w : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h w (ix2 p q) = w (ix2 (0 : Fin 1) q) := by
  refine broadcastInDim_apply ![0, 1] h w (ix2 p q) (ix2 (0 : Fin 1) q) fun ax => ?_
  match ax with
  | ⟨0, _⟩ => rfl
  | ⟨1, _⟩ =>
    show q.val = if b = 1 then 0 else q.val
    split
    · have := q.isLt; omega
    · rfl

/-- The host's spread of a scalar reads its one entry everywhere. -/
theorem scalarInDim_apply {s : Shape} (v : (⟨0, ![]⟩ : Shape).Idx → α)
    (h : (⟨0, ![]⟩ : Shape).BroadcastsInDim s ![]) (i : s.Idx) :
    broadcastInDim s ![] h v i = v ix0 :=
  broadcastInDim_apply ![] h v i ix0 fun ax => ax.elim0

end Idealize.ShloMosaic.RowSpread

end
-- ==== Proof.KernelBlock.lean ====
/-
  What the kernel body writes for one block of 2000 nodes, read at an index, over the extended reals.

  Row p of the block it stores is the node model of row p of the blocks it loads: the matrix products are sums over
  the contracted axis, the per-node edge count (a 2000 × 1 column) and the biases (1 × 64, 1 × 10 rows) are spread
  over the block, format changes are the identity, and the last steps are the row softmax.
-/
import proofs.«165802_j90469191123233_2_alg».proof.Proof.Gen.KernelIdeal.Frame
import proofs.«165802_j90469191123233_2_alg».proof.Proof.LibPlainDot
import proofs.«165802_j90469191123233_2_alg».proof.Proof.LibRowSoftmax
import proofs.«165802_j90469191123233_2_alg».proof.Proof.LibRowSpread
import proofs.«165802_j90469191123233_2_alg».proof.Proof.NodeModel
import Idealize.ShloMosaic.Lib.Pipeline.Value
import Idealize.ShloMosaic.Lib.ValueIdx

noncomputable section

open scoped BigOperators

namespace Cert.KernelBlock

open Cert.KernelIdeal Cert.KernelIdeal.Gen Idealize.ShloMosaic Idealize.ShloMosaic.ValueIdx Cert.NodeModel
open Idealize.ShloMosaic.RowOps Idealize.ShloMosaic.RowSoftmax Idealize.ShloMosaic.RowSpread

/-- A 2000 × 64 block times a 64 × 64 weight, at (p, j). -/
theorem mm64 (x : FVec Ideal S2000x64 .bf16) (w : FVec Ideal S64x64 .bf16) (p : Fin 2000) (j : Fin 64) :
    matmul dot_S2000x64_S64x64_S2000x64_1_0_0_1_n_n none (shapeCast S2000x64 x shapeCasts_S2000x64_S2000x64)
      (shapeCast S64x64 w shapeCasts_S64x64_S64x64) (constant S2000x64 .f32 0x00000000#32) (ix2 p j)
      = ∑ k : Fin 64, x (ix2 p k) * w (ix2 k j) := by
  rw [shapeCast_self, shapeCast_self]
  exact PlainDot.matmul_zero_apply none x w p j

/-- A 2000 × 16 block times a 16 × 64 weight, at (p, j). -/
theorem mm16 (x : FVec Ideal S2000x16 .bf16) (w : FVec Ideal S16x64 .bf16) (p : Fin 2000) (j : Fin 64) :
    matmul dot_S2000x16_S16x64_S2000x64_1_0_0_1_n_n none (shapeCast S2000x16 x shapeCasts_S2000x16_S2000x16)
      (shapeCast S16x64 w shapeCasts_S16x64_S16x64) (constant S2000x64 .f32 0x00000000#32) (ix2 p j)
      = ∑ k : Fin 16, x (ix2 p k) * w (ix2 k j) := by
  rw [shapeCast_self, shapeCast_self]
  exact PlainDot.matmul_zero_apply none x w p j

/-- A 2000 × 64 block (already computed, no cast) times a 64 × 10 weight, at (p, c). -/
theorem mm10 (x : FVec Ideal S2000x64 .bf16) (w : FVec Ideal S64x10 .bf16) (p : Fin 2000) (c : Fin 10) :
    matmul dot_S2000x64_S64x10_S2000x10_1_0_0_1_n_n none x
      (shapeCast S64x10 w shapeCasts_S64x10_S64x10) (constant S2000x10 .f32 0x00000000#32) (ix2 p c)
      = ∑ k : Fin 64, x (ix2 p k) * w (ix2 k c) := by
  rw [shapeCast_self]
  exact PlainDot.matmul_zero_apply none x w p c

/-- A 2000 × 64 block (already computed, no cast) times a 64 × 64 weight, at (p, j). -/
theorem mm64' (x : FVec Ideal S2000x64 .bf16) (w : FVec Ideal S64x64 .bf16) (p : Fin 2000) (j : Fin 64) :
    matmul dot_S2000x64_S64x64_S2000x64_1_0_0_1_n_n none x
      (shapeCast S64x64 w shapeCasts_S64x64_S64x64) (constant S2000x64 .f32 0x00000000#32) (ix2 p j)
      = ∑ k : Fin 64, x (ix2 p k) * w (ix2 k j) := by
  rw [shapeCast_self]
  exact PlainDot.matmul_zero_apply none x w p j

/-- The per-node column spread over 64 lanes reads the node's entry. -/
theorem colSpread (d : FVec Ideal S2000x1 .f32) (p : Fin 2000) (j : Fin 64) :
    broadcastTo S2000x64 (shapeCast S2000x1 d shapeCasts_S2000x1_S2000x1) broadcasts_S2000x1_S2000x64 (ix2 p j)
      = d (ix2 p (0 : Fin 1)) := by
  rw [shapeCast_self]
  exact colBcast_apply d _ p j

/-- A 1 × 64 row spread over the 2000 nodes reads its entry of that lane. -/
theorem rowSpread64 (b : FVec Ideal S1x64 .f32) (p : Fin 2000) (j : Fin 64) :
    broadcastTo S2000x64 (shapeCast S1x64 b shapeCasts_S1x64_S1x64) broadcasts_S1x64_S2000x64 (ix2 p j)
      = b (ix2 (0 : Fin 1) j) := by
  rw [shapeCast_self]
  exact rowBcast_apply b _ p j

/-- A 1 × 10 row spread over the 2000 nodes reads its entry of that class. -/
theorem rowSpread10 (b : FVec Ideal S1x10 .f32) (p : Fin 2000) (c : Fin 10) :
    broadcastTo S2000x10 (shapeCast S1x10 b shapeCasts_S1x10_S1x10) broadcasts_S1x10_S2000x10 (ix2 p c)
      = b (ix2 (0 : Fin 1) c) := by
  rw [shapeCast_self]
  exact rowBcast_apply b _ p c

/-- The aggregated effect the body computes, at (p, j): the effect of row p. -/
theorem pay2_apply (v0 : FVec Ideal S2000x1 .f32) (v2 : FVec Ideal S2000x64 .bf16) (v4 : FVec Ideal S64x64 .bf16)
    (v7 : FVec Ideal S2000x64 .bf16) (v9 : FVec Ideal S64x64 .bf16) (v15 : FVec Ideal S2000x16 .bf16)
    (v17 : FVec Ideal S16x64 .bf16) (v21 : FVec Ideal S1x64 .f32) (p : Fin 2000) (j : Fin 64) :
    k0_pay2 (F := Ideal) v0 v2 v4 v7 v9 v15 v17 v21 (ix2 p j)
      = effectRow (fun k => v2 (ix2 p k)) (fun k => v7 (ix2 p k)) (fun k => v15 (ix2 p k)) (v0 (ix2 p (0 : Fin 1)))
          (fun k j => v4 (ix2 k j)) (fun k j => v9 (ix2 k j)) (fun k j => v17 (ix2 k j))
          (fun j => v21 (ix2 (0 : Fin 1) j)) j := by
  unfold k0_pay2 effectRow
  rw [truncf_apply, addf_apply, addf_apply, addf_apply, mulf_apply, mulf_apply, mm64, mm64, mm16, colSpread,
    rowSpread64]

/-- The product of the node states with the first block of object weights, at (p, j). -/
theorem pay3_apply (v28 : FVec Ideal S2000x64 .bf16) (v30 : FVec Ideal S64x64 .bf16) (p : Fin 2000) (j : Fin 64) :
    k0_pay3 (F := Ideal) v28 v30 (ix2 p j) = ∑ k : Fin 64, v28 (ix2 p k) * v30 (ix2 k j) := by
  unfold k0_pay3
  exact mm64 v28 v30 p j

/-- The stored block at (p, c): the softmax weight of class c among the scores of row p. -/
theorem pay1_apply (v27 : FVec Ideal S2000x64 .bf16) (v32 : FVec Ideal S2000x64 .f32) (v33 : FVec Ideal S2000x16 .bf16)
    (v35 : FVec Ideal S16x64 .bf16) (v39 : FVec Ideal S64x64 .bf16) (v43 : FVec Ideal S1x64 .f32)
    (v48 : FVec Ideal S64x10 .bf16) (v51 : FVec Ideal S1x10 .f32) (p : Fin 2000) (c : Fin 10) :
    k0_pay1 (F := Ideal) v27 v32 v33 v35 v39 v43 v48 v51 (ix2 p c)
      = probRow (scoreRow (fun j => ((v32 (ix2 p j) + ∑ k : Fin 16, v33 (ix2 p k) * v35 (ix2 k j))
            + ∑ k : Fin 64, v27 (ix2 p k) * v39 (ix2 k j)) + v43 (ix2 (0 : Fin 1) j))
          (fun j c => v48 (ix2 j c)) (fun c => v51 (ix2 (0 : Fin 1) c))) c := by
  unfold k0_pay1
  refine (softmaxVec_apply _ 0xFF800000#32 0x00000000#32 reduces_S2000x10_S2000 (.inl rfl) rfl rfl
    shapeCasts_S2000_S2000x1 broadcasts_S2000x1_S2000x10 p c).trans ?_
  unfold probRow
  refine congrArg (fun s => weight 0xFF800000#32 s c) (funext fun c' => ?_)
  unfold scoreRow
  rw [addf_apply, rowSpread10, mm10]
  refine congrArg (· + _) (Finset.sum_congr rfl fun j _ => ?_)
  rw [truncf_apply, addf_apply, addf_apply, addf_apply, rowSpread64, mm64', mm16]

theorem hz : (![0, 0] : Fin 2 → Nat) = fun _ => 0 := funext fun a => by fin_cases a <;> rfl

/-- THE BLOCK THE BODY LEAVES, at (p, c), from the blocks it loaded: the node model of row p. -/
theorem out_apply (x0 : FVec Ideal S2000x64 .bf16) (x1 : FVec Ideal S2000x16 .bf16) (x2 : FVec Ideal S2000x64 .bf16)
    (x3 : FVec Ideal S2000x16 .bf16) (x4 : FVec Ideal S2000x1 .f32) (x5 : FVec Ideal S64x64 .bf16)
    (x6 : FVec Ideal S64x64 .bf16) (x7 : FVec Ideal S16x64 .bf16) (x8 : FVec Ideal S1x64 .f32)
    (x9 : FVec Ideal S64x64 .bf16) (x10 : FVec Ideal S16x64 .bf16) (x11 : FVec Ideal S64x64 .bf16)
    (x12 : FVec Ideal S1x64 .f32) (x13 : FVec Ideal S64x10 .bf16) (x14 : FVec Ideal S1x10 .f32)
    (p : Fin 2000) (c : Fin 10) :
    out0_15 (F := Ideal) x0 x1 x2 x3 x4 x5 x6 x7 x8 x9 x10 x11 x12 x13 x14 (ix2 p c)
      = probRow (scoreRow (hiddenRow (fun k => x0 (ix2 p k)) (fun k => x1 (ix2 p k))
            (effectRow (fun k => x2 (ix2 p k)) (fun k => x0 (ix2 p k)) (fun k => x3 (ix2 p k)) (x4 (ix2 p (0 : Fin 1)))
              (fun k j => x5 (ix2 k j)) (fun k j => x6 (ix2 k j)) (fun k j => x7 (ix2 k j))
              (fun j => x8 (ix2 (0 : Fin 1) j)))
            (fun k j => x9 (ix2 k j)) (fun k j => x10 (ix2 k j)) (fun k j => x11 (ix2 k j))
            (fun j => x12 (ix2 (0 : Fin 1) j)))
          (fun j c => x13 (ix2 j c)) (fun c => x14 (ix2 (0 : Fin 1) c))) c := by
  unfold out0_15
  rw [View.canon_unit_zero hz]
  simp only [View.ld_unit_zero (S := S2000x64) hz, View.ld_unit_zero (S := S2000x16) hz,
    View.ld_unit_zero (S := S2000x1) hz, View.ld_unit_zero (S := S64x64) hz, View.ld_unit_zero (S := S16x64) hz,
    View.ld_unit_zero (S := S1x64) hz, View.ld_unit_zero (S := S64x10) hz, View.ld_unit_zero (S := S1x10) hz]
  rw [pay1_apply]
  unfold hiddenRow
  simp only [pay2_apply, pay3_apply]

end Cert.KernelBlock

end
-- ==== Proof.KernelHost.lean ====
/-
  The arrays the kernel's launch finds, read at an index, as functions of the program's arguments.

  Before the launch the host casts the node states, external inputs and class weights (a format change: the identity
  on extended reals), cuts the relation and object weights into their row blocks, views each bias as one row, and
  forms sums over the edges received by each node: of the relation attributes, and of ones (the number of such
  edges). Each is read here at an index. (The sum of the gathered sender states is read in a module of its own.)
-/
import proofs.«165802_j90469191123233_2_alg».proof.Proof.Gen.KernelIdeal.Frame
import proofs.«165802_j90469191123233_2_alg».proof.Proof.LibScatterRows
import proofs.«165802_j90469191123233_2_alg».proof.Proof.LibRowOps
import proofs.«165802_j90469191123233_2_alg».proof.Proof.LibSegmentLaw
import proofs.«165802_j90469191123233_2_alg».proof.Proof.RefModel
import Idealize.ShloMosaic.Lib.StableHlo.Run
import Idealize.ShloMosaic.Lib.Pipeline.Value
import Idealize.ShloMosaic.Lib.ValueIdx

noncomputable section

open scoped BigOperators

namespace Cert.KernelHost

open Cert.KernelIdeal Cert.KernelIdeal.Gen
open Idealize.ShloMosaic Idealize.ShloMosaic.ValueIdx Idealize.ShloMosaic.TcCoe Idealize.SL.Sem Idealize.ShloMosaic.StableHlo
open Cert.RefModel

variable (m : (ℓ : Loc nD τ sig) → Buf (Elt Ideal) ℓ) (c : Dev nD)

/-! ## The program's arguments on device c -/

abbrev A0 : S50000x64.Idx → EReal := m ((c : Thread nD τ).loc main_arg0)
abbrev A1 : S50000x16.Idx → EReal := m ((c : Thread nD τ).loc main_arg1)
abbrev A2 : S800000x16.Idx → EReal := m ((c : Thread nD τ).loc main_arg2)
abbrev A5 : S144x64.Idx → EReal := m ((c : Thread nD τ).loc main_arg5)
abbrev A6 : S64.Idx → EReal := m ((c : Thread nD τ).loc main_arg6)
abbrev A7 : S144x64.Idx → EReal := m ((c : Thread nD τ).loc main_arg7)
abbrev A8 : S64.Idx → EReal := m ((c : Thread nD τ).loc main_arg8)
abbrev A9 : S64x10.Idx → EReal := m ((c : Thread nD τ).loc main_arg9)
abbrev A10 : S10.Idx → EReal := m ((c : Thread nD τ).loc main_arg10)
abbrev A3 : S800000.Idx → BitVec 32 := m ((c : Thread nD τ).loc main_arg3)
abbrev A4 : S800000.Idx → BitVec 32 := m ((c : Thread nD τ).loc main_arg4)

/-- Reads a buffer after the host operations before the launch as the operations' composed term. -/
macro "host_read" : tactic =>
  `(tactic| (dsimp only [Gen.V]
             simp only [Gen.hostOps0, Gen.hostOps0_1, List.flatten_cons, List.flatten_nil, List.append_nil, List.cons_append,
               List.nil_append]
             after_results))

/-- A block of rows of a 144 × 64 weight matrix starting at row off > 0, at (k, j). -/
theorem slice_at {r : Nat} (x : FVec Ideal S144x64 .f32) (off : Nat) (h : S144x64.Slices ![off, 0] ⟨2, ![r, 64]⟩)
    (k : Fin r) (j : Fin 64) (hk : off + k.val < 144) :
    extractStridedSlice ⟨2, ![r, 64]⟩ ![off, 0] x h (ix2 k j) = x (ix2 (⟨off + k.val, hk⟩ : Fin 144) j) :=
  extractStridedSlice_apply ![off, 0] x h (ix2 k j) (ix2 (⟨off + k.val, hk⟩ : Fin 144) j) (fun a => by
    match a with
    | ⟨0, _⟩ => rfl
    | ⟨1, _⟩ => show j.val = 0 + j.val; omega)

/-- The leading block of rows, at (k, j). -/
theorem slice0_at {r : Nat} (x : FVec Ideal S144x64 .f32) (h : S144x64.Slices ![0, 0] ⟨2, ![r, 64]⟩)
    (k : Fin r) (j : Fin 64) (hk : k.val < 144) :
    extractStridedSlice ⟨2, ![r, 64]⟩ ![0, 0] x h (ix2 k j) = x (ix2 (⟨k.val, hk⟩ : Fin 144) j) :=
  extractStridedSlice_apply ![0, 0] x h (ix2 k j) (ix2 (⟨k.val, hk⟩ : Fin 144) j) (fun a => by
    match a with
    | ⟨0, _⟩ => show k.val = 0 + k.val; omega
    | ⟨1, _⟩ => show j.val = 0 + j.val; omega)

/-- A vector viewed as one row, at (0, j). -/
theorem row_at {n : Nat} (x : (⟨1, ![n]⟩ : Shape).Idx → EReal) (h : (⟨1, ![n]⟩ : Shape).ShapeCasts ⟨2, ![1, n]⟩) (j : Fin n) :
    shapeCast ⟨2, ![1, n]⟩ x h (ix2 (0 : Fin 1) j) = x (ix1 j) :=
  shapeCast_apply x h (ix2 (0 : Fin 1) j) (ix1 j) (by
    rw [Shape.rowMajor_val_one, Shape.rowMajor_val_two]; show j.val = 0 * n + j.val; omega)

/-! ## The cast tables -/

theorem o_at (i : S50000x64.Idx) : (V m c main_v11 : S50000x64.Idx → EReal) i = A0 m c i := by
  host_read; rfl

theorem x_at (i : S50000x16.Idx) : (V m c main_v12 : S50000x16.Idx → EReal) i = A1 m c i := by
  host_read; rfl

theorem ws_at (i : S64x10.Idx) : (V m c main_v29 : S64x10.Idx → EReal) i = A9 m c i := by
  host_read; rfl

/-! ## The weight blocks -/

theorem w1_at (k j : Fin 64) : (V m c main_v16 : S64x64.Idx → EReal) (ix2 k j)
    = A5 m c (ix2 (⟨k.val, by omega⟩ : Fin 144) j) := by
  host_read
  exact slice0_at (A5 m c) slices_S144x64_S64x64_0_0 k j (by omega)

theorem w2_at (k j : Fin 64) : (V m c main_v18 : S64x64.Idx → EReal) (ix2 k j)
    = A5 m c (ix2 (⟨64 + k.val, by omega⟩ : Fin 144) j) := by
  host_read
  exact slice_at (A5 m c) 64 slices_S144x64_S64x64_64_0 k j (by omega)

theorem w3_at (k : Fin 16) (j : Fin 64) : (V m c main_v20 : S16x64.Idx → EReal) (ix2 k j)
    = A5 m c (ix2 (⟨64 + 64 + k.val, by omega⟩ : Fin 144) j) := by
  host_read
  exact slice_at (A5 m c) 128 slices_S144x64_S16x64_128_0 k j (by omega)

theorem wo1_at (k j : Fin 64) : (V m c main_v23 : S64x64.Idx → EReal) (ix2 k j)
    = A7 m c (ix2 (⟨k.val, by omega⟩ : Fin 144) j) := by
  host_read
  exact slice0_at (A7 m c) slices_S144x64_S64x64_0_0 k j (by omega)

theorem wo2_at (k : Fin 16) (j : Fin 64) : (V m c main_v25 : S16x64.Idx → EReal) (ix2 k j)
    = A7 m c (ix2 (⟨64 + k.val, by omega⟩ : Fin 144) j) := by
  host_read
  exact slice_at (A7 m c) 64 slices_S144x64_S16x64_64_0 k j (by omega)

theorem wo3_at (k j : Fin 64) : (V m c main_v27 : S64x64.Idx → EReal) (ix2 k j)
    = A7 m c (ix2 (⟨64 + 16 + k.val, by omega⟩ : Fin 144) j) := by
  host_read
  exact slice_at (A7 m c) 80 slices_S144x64_S64x64_80_0 k j (by omega)

/-! ## The biases as rows -/

theorem br_at (j : Fin 64) : (V m c main_v21 : S1x64.Idx → EReal) (ix2 (0 : Fin 1) j) = A6 m c (ix1 j) := by
  host_read
  exact row_at (A6 m c) shapeCasts_S64_S1x64 j

theorem bo_at (j : Fin 64) : (V m c main_v28 : S1x64.Idx → EReal) (ix2 (0 : Fin 1) j) = A8 m c (ix1 j) := by
  host_read
  exact row_at (A8 m c) shapeCasts_S64_S1x64 j

theorem bs_at (j : Fin 10) : (V m c main_v30 : S1x10.Idx → EReal) (ix2 (0 : Fin 1) j) = A10 m c (ix1 j) := by
  host_read
  exact row_at (A10 m c) shapeCasts_S10_S1x10 j

/-! ## The sums over received edges -/

/-- The receiver word as an 800000 × 1 column reads the word. -/
theorem rcv_col (e : Fin 800000) :
    broadcastInDim S800000x1 ![0] bcast_S800000_S800000x1_0 (A4 m c) (ix2 e (0 : Fin 1)) = A4 m c (ix1 e) :=
  RowOps.colInDim_apply (A4 m c) bcast_S800000_S800000x1_0 e

/-- The number of edges received by node p, as an extended real. -/
theorem deg_at (p : Fin 50000) : (V m c main_v10 : S50000x1.Idx → EReal) (ix2 p (0 : Fin 1))
    = ∑ e : Fin 800000, if (A4 m c (ix1 e)).toInt = (p.val : Int) then (1 : EReal) else 0 := by
  host_read
  have key := ScatterRows.scatterAdd_rows_apply (N := 50000) (D := 1) (E := 800000)
    scatter_S50000x1_S800000x1_S800000x1_1_0_0_1.wf
    (broadcastInDim S50000x1 ![] bcast_S_S50000x1 (constant (F := Ideal) S_ .f32 0x00000000#32))
    (broadcastInDim S800000x1 ![0] bcast_S800000_S800000x1_0 (A4 m c))
    (broadcastInDim S800000x1 ![] bcast_S_S800000x1 (constant (F := Ideal) S_ .f32 0x3F800000#32)) p (0 : Fin 1)
  refine Eq.trans key ?_
  have hz : (broadcastInDim S50000x1 ![] bcast_S_S50000x1 (constant (F := Ideal) S_ .f32 0x00000000#32)) (ix2 p (0 : Fin 1))
      = (0 : EReal) := Ideal.ofBits_zero_f32
  rw [hz, zero_add]
  show ((∑ e : Fin 800000, _) : EReal) = ∑ e : Fin 800000, _
  refine Finset.sum_congr rfl fun e _ => ?_
  rw [rcv_col]
  exact if_congr Iff.rfl Cert.SegmentLaw.ofBits_one_f32 rfl

/-- The relation attributes summed over the edges received by node p. -/
theorem s3_at (p : Fin 50000) (k : Fin 16) : (V m c main_v14 : S50000x16.Idx → EReal) (ix2 p k)
    = ∑ e : Fin 800000, if (A4 m c (ix1 e)).toInt = (p.val : Int) then A2 m c (ix2 e k) else 0 := by
  host_read
  have key := ScatterRows.scatterAdd_rows_apply (N := 50000) (D := 16) (E := 800000)
    scatter_S50000x16_S800000x1_S800000x16_1_0_0_1.wf
    (broadcastInDim S50000x16 ![] bcast_S_S50000x16 (constant (F := Ideal) S_ .f32 0x00000000#32))
    (broadcastInDim S800000x1 ![0] bcast_S800000_S800000x1_0 (A4 m c)) (A2 m c) p k
  refine Eq.trans key ?_
  have hz : (broadcastInDim S50000x16 ![] bcast_S_S50000x16 (constant (F := Ideal) S_ .f32 0x00000000#32)) (ix2 p k)
      = (0 : EReal) := Ideal.ofBits_zero_f32
  rw [hz, zero_add]
  show ((∑ e : Fin 800000, _) : EReal) = ∑ e : Fin 800000, _
  refine Finset.sum_congr rfl fun e _ => ?_
  rw [rcv_col]

end Cert.KernelHost

end
-- ==== Proof.KernelTake.lean ====
/-
  The guarded row gather of the kernel's host side, read at an index, for sender words in range.

  The kernel gathers a row of the node table at each edge's sender word (a negative word counted from the end) and
  then keeps the gathered row only where that index lies in [0, 49999], putting a not-a-number word elsewhere. For a
  sender word in [0, 50000) the index is the word itself, the guard's bit is 1 — it is the conjunction, over an axis
  of one entry, of index ≥ 0 and index ≤ 49999 — and the guarded row is the gathered row.
-/
import proofs.«165802_j90469191123233_2_alg».proof.KernelIdeal
import proofs.«165802_j90469191123233_2_alg».proof.Proof.Gen.KernelIdeal
import proofs.«165802_j90469191123233_2_alg».proof.Proof.LibGatherRows
import proofs.«165802_j90469191123233_2_alg».proof.Proof.LibRowOps
import proofs.«165802_j90469191123233_2_alg».proof.Proof.RefModel
import Idealize.ShloMosaic.Lib.Pipeline.Value
import Idealize.ShloMosaic.Lib.ValueIdx
import Idealize.ShloMosaic.Lib.Affine
import Idealize.ShloMosaic.PureOps.Reduce

noncomputable section

namespace Cert.KernelTake

open Cert.KernelIdeal Cert.KernelIdeal.Facts₀ Cert.KernelIdeal.Facts Idealize.ShloMosaic Idealize.ShloMosaic.ValueIdx
open Cert.RefModel

/-- A word that is nonnegative read signed is its own index. -/
theorem norm_of_nonneg (s : BitVec 32) (h0 : 0 ≤ s.toInt) : RefModel.norm s = s := by
  unfold RefModel.norm
  have hc : IntOp.cmpi .slt s 0#32 ≠ 1#1 := fun h => by
    have h1 := IntOp.cmpi_slt.1 h
    rw [show (0#32 : BitVec 32).toInt = 0 from by decide] at h1
    omega
  exact if_neg hc

/-- The index column: the sender word, a negative one counted from the end, as an 800000 × 1 column. -/
def idxCol (a3 : IVec S800000 32) : IVec S800000x1 32 :=
  broadcastInDim S800000x1 ![0] bcast_S800000_S800000x1_0
    (select (cmpi .slt a3 (broadcastInDim S800000 ![] bcast_S_S800000 (constantI S_ 32 0#32)))
      (addi a3 (broadcastInDim S800000 ![] bcast_S_S800000 (constantI S_ 32 50000#32))) a3)

theorem idxCol_at (a3 : IVec S800000 32) (e : Fin 800000) : idxCol a3 (ix2 e (0 : Fin 1)) = RefModel.norm (a3 (ix1 e)) := by
  unfold idxCol
  rw [RowOps.colInDim_apply]
  rfl

/-- The guard: index ≥ 0 and index ≤ 49999, joined over the column's one entry, spread over the 64 lanes. -/
def guard (a3 : IVec S800000 32) : IVec S800000x64 1 :=
  broadcastInDim S800000x64 ![0] bcast_S800000_S800000x64_0
    (Host.reduce IntOp.andi
      (andi (cmpi .sge (idxCol a3) (broadcastInDim S800000x1 ![] bcast_S_S800000x1 (constantI S_ 32 0#32)))
        (cmpi .sle (idxCol a3) (broadcastInDim S800000x1 ![0, 1] bcast_S1x1_S800000x1_0_1
          (broadcastInDim S1x1 ![1] bcast_S1_S1x1_1 (constantI S1 32 49999#32)))))
      (constantI S_ 1 1#1) reducesTo_S800000x1_S800000_d1 h_S_)

/-- A fold of the one-bit conjunction over a single entry, from 1, is that entry joined with 1. -/
theorem fold_and_one (f : Fin 1 → BitVec 1) :
    Finset.fold IntOp.andi (1#1) f (Finset.univ : Finset (Fin 1)) = IntOp.andi (f 0) (1#1) := by
  rw [Finset.univ_unique, Finset.fold_singleton]
  rfl

/-- For a sender word in range the guard's bit is 1. -/
theorem guard_at (a3 : IVec S800000 32) (e : Fin 800000) (k : Fin 64)
    (h0 : 0 ≤ (a3 (ix1 e)).toInt) (h1 : (a3 (ix1 e)).toInt < 50000) : guard a3 (ix2 e k) = 1#1 := by
  have hR : (S800000x1 : Shape).Reduces [1] S800000 := by decide
  unfold guard
  rw [broadcastInDim_apply ![0] bcast_S800000_S800000x64_0 _ (ix2 e k) (ix1 e) (fun a => by
    match a with
    | ⟨0, _⟩ => show e.val = if (800000 : Nat) = 1 then 0 else e.val; rw [if_neg (by decide)])]
  rw [Host.reduce_eq_fold_single IntOp.andi _ _ reducesTo_S800000x1_S800000_d1 hR h_S_ (ix1 e)]
  refine (fold_and_one _).trans ?_
  refine IntOp.andi_eq_one.2 ⟨?_, rfl⟩
  show andi _ _ (hR.lift (ix1 e) (0 : Fin 1)) = 1#1
  rw [RowOps.lift_row (a := 800000) (b := 1) hR e (0 : Fin 1)]
  show IntOp.andi (IntOp.cmpi .sge (idxCol a3 (ix2 e (0 : Fin 1))) 0#32)
    (IntOp.cmpi .sle (idxCol a3 (ix2 e (0 : Fin 1))) 49999#32) = 1#1
  rw [idxCol_at, norm_of_nonneg _ h0]
  refine IntOp.andi_eq_one.2 ⟨IntOp.cmpi_sge.2 ?_, IntOp.cmpi_sle.2 ?_⟩
  · rw [show (0#32 : BitVec 32).toInt = 0 from by decide]; exact h0
  · rw [show (49999#32 : BitVec 32).toInt = 49999 from by decide]; omega

/-- THE GUARDED GATHER at (e, k), for a sender word in range: the node table's row at that word. -/
theorem take_at (a0 : FVec Ideal S50000x64 .f32) (a3 : IVec S800000 32) (e : Fin 800000) (k : Fin 64)
    (h0 : 0 ≤ (a3 (ix1 e)).toInt) (h1 : (a3 (ix1 e)).toInt < 50000) :
    select (guard a3) (Host.gather gather_S50000x64_S800000x1_S800000x64_1_0_n_n_0_1_164 a0 (idxCol a3))
        (broadcastInDim S800000x64 ![] bcast_S_S800000x64 (constant S_ .f32 0x7FC00000#32)) (ix2 e k)
      = a0 (ix2 (rowOf (RefModel.norm (a3 (ix1 e)))) k) := by
  rw [select_apply, guard_at a3 e k h0 h1, select_one]
  refine (GatherRows.gather_rows_apply (N := 50000) (D := 64) (E := 800000) (by decide)
    gather_S50000x64_S800000x1_S800000x64_1_0_n_n_0_1_164.wf a0 (idxCol a3) e k).trans ?_
  exact congrArg (fun w => a0 (ix2 (rowOf w) k)) (idxCol_at a3 e)

end Cert.KernelTake

end
-- ==== Proof.KernelS1.lean ====
/-
  The sum of the gathered sender states over the edges received by a node, as the kernel's launch finds it.

  The host gathers, for every edge, the row of the node table at the edge's sender word — guarded: a row whose index
  is out of range is replaced by a not-a-number word — and adds the rows onto the receiver nodes from a zero table.
  For sender words in range the guard passes every row, so entry (p, k) is the sum, over the edges whose receiver word
  is p, of the node table's entry (sender row, k).
-/
import proofs.«165802_j90469191123233_2_alg».proof.Proof.KernelHost
import proofs.«165802_j90469191123233_2_alg».proof.Proof.KernelTake

noncomputable section

open scoped BigOperators

namespace Cert.KernelS1

open Cert.KernelIdeal Cert.KernelIdeal.Gen
open Idealize.ShloMosaic Idealize.ShloMosaic.ValueIdx Idealize.ShloMosaic.TcCoe Idealize.SL.Sem Idealize.ShloMosaic.StableHlo
open Cert.RefModel Cert.KernelHost Cert.KernelTake

variable (m : (ℓ : Loc nD τ sig) → Buf (Elt Ideal) ℓ) (c : Dev nD)

/-- Contents carried to a typed reference's buffer and back are the contents. -/
theorem ofBuf_toBuf {Val : EltTy → Type} {T : BufTy} (x : StableHlo.TRef sig T) (v : T.Contents Val) :
    x.ofBuf (x.toBuf v) = v := by
  obtain ⟨r, h, h1, h2⟩ := x
  subst h
  rfl

set_option maxHeartbeats 8000000 in
set_option maxRecDepth 1000000 in
/-- The sender states summed over the edges received by node p, for sender words in range. -/
theorem s1_at (hs : ∀ e, 0 ≤ (A3 m c e).toInt ∧ (A3 m c e).toInt < 50000) (p : Fin 50000) (k : Fin 64) :
    (V m c main_v13 : S50000x64.Idx → EReal) (ix2 p k)
      = ∑ e : Fin 800000, if (A4 m c (ix1 e)).toInt = (p.val : Int)
          then A0 m c (ix2 (rowOf (RefModel.norm (A3 m c (ix1 e)))) k) else 0 := by
  host_read
  simp only [ofBuf_toBuf]
  have key := ScatterRows.scatterAdd_rows_apply (N := 50000) (D := 64) (E := 800000)
    scatter_S50000x64_S800000x1_S800000x64_1_0_0_1.wf
    (broadcastInDim S50000x64 ![] bcast_S_S50000x64 (constant (F := Ideal) S_ .f32 0x00000000#32))
    (broadcastInDim S800000x1 ![0] bcast_S800000_S800000x1_0 (A4 m c))
    (select (guard (A3 m c)) (Host.gather gather_S50000x64_S800000x1_S800000x64_1_0_n_n_0_1_164 (A0 m c) (idxCol (A3 m c)))
      (broadcastInDim S800000x64 ![] bcast_S_S800000x64 (constant (F := Ideal) S_ .f32 0x7FC00000#32))) p k
  refine Eq.trans key ?_
  have hz : (broadcastInDim S50000x64 ![] bcast_S_S50000x64 (constant (F := Ideal) S_ .f32 0x00000000#32)) (ix2 p k)
      = (0 : EReal) := Ideal.ofBits_zero_f32
  rw [hz, zero_add]
  show ((∑ e : Fin 800000, _) : EReal) = ∑ e : Fin 800000, _
  refine Finset.sum_congr rfl fun e _ => ?_
  rw [rcv_col]
  exact if_congr Iff.rfl (take_at (A0 m c) (A3 m c) e k (hs (ix1 e)).1 (hs (ix1 e)).2) rfl

end Cert.KernelS1

end
-- ==== Proof.KernelBridge.lean ====
/-
  The law that joins the two programs, over the arrays the kernel's launch finds.

  The reference sums, over the edges received by a node, an affine image of per-edge data; the kernel first sums the
  data (the gathered sender states, the relation attributes, and ones) and then takes the affine image once, the
  node's own state and the bias counted once per received edge. For real entries these agree by distributivity; an
  edge whose receiver word is p reads, as its receiver state, row p itself. With the weight blocks and biases read
  back as the arguments' entries, the node model over the launch's arrays is the network's output at that node.
-/
import proofs.«165802_j90469191123233_2_alg».proof.Proof.Gen.KernelIdeal.Frame
import proofs.«165802_j90469191123233_2_alg».proof.Proof.KernelHost
import proofs.«165802_j90469191123233_2_alg».proof.Proof.KernelS1
import proofs.«165802_j90469191123233_2_alg».proof.Proof.LibSegmentLaw
import proofs.«165802_j90469191123233_2_alg».proof.Proof.RefModel
import Idealize.ShloMosaic.Lib.Pipeline.Value

set_option maxRecDepth 100000

noncomputable section

open scoped BigOperators

namespace Cert.KernelBridge

open Cert.KernelIdeal Cert.KernelIdeal.Gen Idealize.ShloMosaic Idealize.ShloMosaic.ValueIdx Idealize.ShloMosaic.TcCoe
open Idealize.SL.Sem
open Idealize.ShloMosaic.Pipeline (Dat)
open Cert.NodeModel Cert.RefModel Cert.KernelHost

variable (m : (ℓ : Loc nD τ sig) → Buf (Elt Ideal) ℓ) (ρ : Dev nD → PrngReg) (c : Dev nD)

/-! ## The arrays the launch finds, typed -/

abbrev W10 : S50000x1.Idx → EReal := V m c main_v10
abbrev W11 : S50000x64.Idx → EReal := V m c main_v11
abbrev W12 : S50000x16.Idx → EReal := V m c main_v12
abbrev W13 : S50000x64.Idx → EReal := V m c main_v13
abbrev W14 : S50000x16.Idx → EReal := V m c main_v14
abbrev W16 : S64x64.Idx → EReal := V m c main_v16
abbrev W18 : S64x64.Idx → EReal := V m c main_v18
abbrev W20 : S16x64.Idx → EReal := V m c main_v20
abbrev W21 : S1x64.Idx → EReal := V m c main_v21
abbrev W23 : S64x64.Idx → EReal := V m c main_v23
abbrev W25 : S16x64.Idx → EReal := V m c main_v25
abbrev W27 : S64x64.Idx → EReal := V m c main_v27
abbrev W28 : S1x64.Idx → EReal := V m c main_v28
abbrev W29 : S64x10.Idx → EReal := V m c main_v29
abbrev W30 : S1x10.Idx → EReal := V m c main_v30

/-! ## The launch's arrays read back (the same lemmas, stated on the typed names) -/

theorem W11_at (i : S50000x64.Idx) : W11 m c i = A0 m c i := o_at m c i
theorem W12_at (i : S50000x16.Idx) : W12 m c i = A1 m c i := x_at m c i
theorem W29_at (i : S64x10.Idx) : W29 m c i = A9 m c i := ws_at m c i
theorem W16_at (k j : Fin 64) : W16 m c (ix2 k j) = A5 m c (ix2 (⟨k.val, by omega⟩ : Fin 144) j) := w1_at m c k j
theorem W18_at (k j : Fin 64) : W18 m c (ix2 k j) = A5 m c (ix2 (⟨64 + k.val, by omega⟩ : Fin 144) j) := w2_at m c k j
theorem W20_at (k : Fin 16) (j : Fin 64) : W20 m c (ix2 k j) = A5 m c (ix2 (⟨64 + 64 + k.val, by omega⟩ : Fin 144) j) :=
  w3_at m c k j
theorem W23_at (k j : Fin 64) : W23 m c (ix2 k j) = A7 m c (ix2 (⟨k.val, by omega⟩ : Fin 144) j) := wo1_at m c k j
theorem W25_at (k : Fin 16) (j : Fin 64) : W25 m c (ix2 k j) = A7 m c (ix2 (⟨64 + k.val, by omega⟩ : Fin 144) j) :=
  wo2_at m c k j
theorem W27_at (k j : Fin 64) : W27 m c (ix2 k j) = A7 m c (ix2 (⟨64 + 16 + k.val, by omega⟩ : Fin 144) j) :=
  wo3_at m c k j
theorem W21_at (j : Fin 64) : W21 m c (ix2 (0 : Fin 1) j) = A6 m c (ix1 j) := br_at m c j
theorem W28_at (j : Fin 64) : W28 m c (ix2 (0 : Fin 1) j) = A8 m c (ix1 j) := bo_at m c j
theorem W30_at (j : Fin 10) : W30 m c (ix2 (0 : Fin 1) j) = A10 m c (ix1 j) := bs_at m c j
theorem W10_at (p : Fin 50000) : W10 m c (ix2 p (0 : Fin 1))
    = ∑ e : Fin 800000, if (A4 m c (ix1 e)).toInt = (p.val : Int) then (1 : EReal) else 0 := deg_at m c p
theorem W14_at (p : Fin 50000) (k : Fin 16) : W14 m c (ix2 p k)
    = ∑ e : Fin 800000, if (A4 m c (ix1 e)).toInt = (p.val : Int) then A2 m c (ix2 e k) else 0 := s3_at m c p k
theorem W13_at (hs : ∀ e, 0 ≤ (A3 m c e).toInt ∧ (A3 m c e).toInt < 50000) (p : Fin 50000) (k : Fin 64) :
    W13 m c (ix2 p k) = ∑ e : Fin 800000, if (A4 m c (ix1 e)).toInt = (p.val : Int)
      then A0 m c (ix2 (rowOf (RefModel.norm (A3 m c (ix1 e)))) k) else 0 := Cert.KernelS1.s1_at m c hs p k

/-- A receiver word whose signed value is p reads row p of the node table. -/
theorem rowOf_norm_eq (s : BitVec 32) (p : Fin 50000) (h : s.toInt = (p.val : Int)) : rowOf (RefModel.norm s) = p := by
  rw [Cert.KernelTake.norm_of_nonneg s (by omega)]
  apply Fin.ext
  show min s.toInt.toNat (50000 - 1) = p.val
  have := p.isLt
  omega

/-- THE LAW: the affine image of the sums over received edges is the sum of the edges' affine images. -/
theorem effect_eq (hO : ∀ i, ∃ x : ℝ, (A0 m c) i = (x : EReal)) (hR : ∀ i, ∃ x : ℝ, (A2 m c) i = (x : EReal))
    (hW : ∀ i, ∃ x : ℝ, (A5 m c) i = (x : EReal)) (hB : ∀ i, ∃ x : ℝ, (A6 m c) i = (x : EReal))
    (hs : ∀ e, 0 ≤ ((A3 m c) e).toInt ∧ ((A3 m c) e).toInt < 50000) (q : Fin 50000) (j : Fin 64) :
    effectRow (fun k => (W13 m c) (ix2 q k)) (fun k => (W11 m c) (ix2 q k))
          (fun k => (W14 m c) (ix2 q k)) ((W10 m c) (ix2 q (0 : Fin 1)))
          (fun k j => (W16 m c) (ix2 k j)) (fun k j => (W18 m c) (ix2 k j))
          (fun k j => (W20 m c) (ix2 k j)) (fun j => (W21 m c) (ix2 (0 : Fin 1) j)) j
      = refEffect (A0 m c) (A2 m c) (A3 m c) (A4 m c) (A5 m c) (A6 m c) q j := by
  obtain ⟨o, ho⟩ : ∃ o : S50000x64.Idx → ℝ, ∀ i, (A0 m c) i = ((o i : ℝ) : EReal) :=
    ⟨fun i => (hO i).choose, fun i => (hO i).choose_spec⟩
  obtain ⟨r, hr⟩ : ∃ r : S800000x16.Idx → ℝ, ∀ i, (A2 m c) i = ((r i : ℝ) : EReal) :=
    ⟨fun i => (hR i).choose, fun i => (hR i).choose_spec⟩
  obtain ⟨w, hw⟩ : ∃ w : S144x64.Idx → ℝ, ∀ i, (A5 m c) i = ((w i : ℝ) : EReal) :=
    ⟨fun i => (hW i).choose, fun i => (hW i).choose_spec⟩
  obtain ⟨b, hb⟩ : ∃ b : S64.Idx → ℝ, ∀ i, (A6 m c) i = ((b i : ℝ) : EReal) :=
    ⟨fun i => (hB i).choose, fun i => (hB i).choose_spec⟩
  show ((∑ k : Fin 64, (W13 m c) (ix2 q k) * (W16 m c) (ix2 k j)
        + (W10 m c) (ix2 q (0 : Fin 1)) * ∑ k : Fin 64, (W11 m c) (ix2 q k) * (W18 m c) (ix2 k j))
      + ∑ k : Fin 16, (W14 m c) (ix2 q k) * (W20 m c) (ix2 k j))
      + (W10 m c) (ix2 q (0 : Fin 1)) * (W21 m c) (ix2 (0 : Fin 1) j) = _
  simp only [W13_at m c hs, W11_at m c, W14_at m c, W10_at m c, W16_at m c, W18_at m c, W20_at m c, W21_at m c]
  show _ = ∑ e : Fin 800000, if ((A4 m c) (ix1 e)).toInt = (q.val : Int) then
      (((∑ k : Fin 64, (A0 m c) (ix2 (rowOf (RefModel.norm ((A3 m c) (ix1 e)))) k) * (A5 m c) (ix2 (⟨k.val, by omega⟩ : Fin 144) j)
        + ∑ k : Fin 64, (A0 m c) (ix2 (rowOf (RefModel.norm ((A4 m c) (ix1 e)))) k) * (A5 m c) (ix2 (⟨64 + k.val, by omega⟩ : Fin 144) j))
        + ∑ k : Fin 16, (A2 m c) (ix2 e k) * (A5 m c) (ix2 (⟨64 + 64 + k.val, by omega⟩ : Fin 144) j)) + (A6 m c) (ix1 j)) else 0
  simp only [ho, hr, hw, hb]
  exact Cert.SegmentLaw.segment_linear (fun e : Fin 800000 => ((A4 m c) (ix1 e)).toInt = (q.val : Int))
    (fun e k => o (ix2 (rowOf (RefModel.norm ((A3 m c) (ix1 e)))) k)) (fun k => w (ix2 (⟨k.val, by omega⟩ : Fin 144) j))
    (fun e k => o (ix2 (rowOf (RefModel.norm ((A4 m c) (ix1 e)))) k)) (fun k => o (ix2 q k))
    (fun k => w (ix2 (⟨64 + k.val, by omega⟩ : Fin 144) j)) (fun e k => r (ix2 e k))
    (fun k => w (ix2 (⟨64 + 64 + k.val, by omega⟩ : Fin 144) j)) (b (ix1 j))
    (fun e he => by rw [rowOf_norm_eq _ q he])

/-- The node model over the arrays the launch finds, at node q, is the network's output at node q. -/
theorem node_eq (hO : ∀ i, ∃ x : ℝ, (A0 m c) i = (x : EReal)) (hR : ∀ i, ∃ x : ℝ, (A2 m c) i = (x : EReal))
    (hW : ∀ i, ∃ x : ℝ, (A5 m c) i = (x : EReal)) (hB : ∀ i, ∃ x : ℝ, (A6 m c) i = (x : EReal))
    (hs : ∀ e, 0 ≤ ((A3 m c) e).toInt ∧ ((A3 m c) e).toInt < 50000) (q : Fin 50000) (c' : Fin 10) :
    probRow (scoreRow (hiddenRow (fun k => (W11 m c) (ix2 q k)) (fun k => (W12 m c) (ix2 q k))
          (effectRow (fun k => (W13 m c) (ix2 q k)) (fun k => (W11 m c) (ix2 q k))
          (fun k => (W14 m c) (ix2 q k)) ((W10 m c) (ix2 q (0 : Fin 1)))
          (fun k j => (W16 m c) (ix2 k j)) (fun k j => (W18 m c) (ix2 k j))
          (fun k j => (W20 m c) (ix2 k j)) (fun j => (W21 m c) (ix2 (0 : Fin 1) j)))
          (fun k j => (W23 m c) (ix2 k j)) (fun k j => (W25 m c) (ix2 k j))
          (fun k j => (W27 m c) (ix2 k j)) (fun j => (W28 m c) (ix2 (0 : Fin 1) j)))
        (fun j d => (W29 m c) (ix2 j d)) (fun d => (W30 m c) (ix2 (0 : Fin 1) d))) c'
      = refOutAt (A0 m c) (A1 m c) (A2 m c) (A3 m c) (A4 m c) (A5 m c) (A6 m c) (A7 m c) (A8 m c) (A9 m c) (A10 m c) q c' := by
  have he : (effectRow (fun k => (W13 m c) (ix2 q k)) (fun k => (W11 m c) (ix2 q k))
          (fun k => (W14 m c) (ix2 q k)) ((W10 m c) (ix2 q (0 : Fin 1)))
          (fun k j => (W16 m c) (ix2 k j)) (fun k j => (W18 m c) (ix2 k j))
          (fun k j => (W20 m c) (ix2 k j)) (fun j => (W21 m c) (ix2 (0 : Fin 1) j)))
      = refEffect (A0 m c) (A2 m c) (A3 m c) (A4 m c) (A5 m c) (A6 m c) q :=
    funext fun j => effect_eq m c hO hR hW hB hs q j
  rw [he]
  simp only [W11_at m c, W12_at m c, W23_at m c, W25_at m c, W27_at m c, W28_at m c, W29_at m c, W30_at m c]
  rfl

end Cert.KernelBridge

end
-- ==== Proof.KernelValue.lean ====
/-
  The kernel's result array is the interaction network's output function of the eleven arguments.

  Grid point t of the launch writes rows 2000 t … 2000 t + 1999 of the output, computed from the same rows of the
  row-blocked arrays (node states, external inputs, the three sums over received edges) and from the whole weight
  and bias arrays; row p of what it writes is the node model of row 2000 t + p, which is the network's output there.
  The 25 blocks cover the 50000 rows, so after the run the whole array is that function.
-/
import proofs.«165802_j90469191123233_2_alg».proof.Proof.Gen.KernelIdeal.Value
import proofs.«165802_j90469191123233_2_alg».proof.Proof.KernelBlock
import proofs.«165802_j90469191123233_2_alg».proof.Proof.KernelBridge
import Idealize.ShloMosaic.Lib.Pipeline.Value

set_option maxRecDepth 100000

noncomputable section

open scoped BigOperators

namespace Cert.KernelValue

open Cert.KernelIdeal Cert.KernelIdeal.Gen Idealize.ShloMosaic Idealize.ShloMosaic.ValueIdx Idealize.ShloMosaic.TcCoe
open Idealize.SL.Sem
open Idealize.ShloMosaic.Pipeline (Dat)
open Cert.NodeModel Cert.RefModel Cert.KernelHost Cert.KernelBridge

variable (m : (ℓ : Loc nD τ sig) → Buf (Elt Ideal) ℓ) (ρ : Dev nD → PrngReg) (c : Dev nD)

/-! ## From blocks to the array -/

/-- The printed index maps, decided over the 25 grid points: the row-blocked windows move with the point, the
    weight windows stay at the origin. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_15.index t (0 : Fin 2) = t.val ∧ win0_15.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0
    ∧ win0_14.index t (0 : Fin 2) = 0 ∧ win0_14.index t (1 : Fin 2) = 0 :=
  (by decide +kernel : ∀ t : Fin grid0.N, _)

theorem emb0 (t : Fin cfg0.N) (p : Fin 2000) (k : Fin 64) (hq : t.val * 2000 + p.val < 50000) :
    ((cfg0.win 0).blk t).view.emb (ix2 p k) = ix2 (⟨t.val * 2000 + p.val, hq⟩ : Fin 50000) k := by
  have e := idx_facts t
  funext a; apply Fin.ext
  match a with
  | ⟨0, _⟩ => show win0_0.index t (0 : Fin 2) * 2000 + 1 * p.val = t.val * 2000 + p.val; omega
  | ⟨1, _⟩ => show win0_0.index t (1 : Fin 2) * 64 + 1 * k.val = k.val; omega

theorem emb1 (t : Fin cfg0.N) (p : Fin 2000) (k : Fin 16) (hq : t.val * 2000 + p.val < 50000) :
    ((cfg0.win 1).blk t).view.emb (ix2 p k) = ix2 (⟨t.val * 2000 + p.val, hq⟩ : Fin 50000) k := by
  have e := idx_facts t
  funext a; apply Fin.ext
  match a with
  | ⟨0, _⟩ => show win0_1.index t (0 : Fin 2) * 2000 + 1 * p.val = t.val * 2000 + p.val; omega
  | ⟨1, _⟩ => show win0_1.index t (1 : Fin 2) * 16 + 1 * k.val = k.val; omega

theorem emb2 (t : Fin cfg0.N) (p : Fin 2000) (k : Fin 64) (hq : t.val * 2000 + p.val < 50000) :
    ((cfg0.win 2).blk t).view.emb (ix2 p k) = ix2 (⟨t.val * 2000 + p.val, hq⟩ : Fin 50000) k := by
  have e := idx_facts t
  funext a; apply Fin.ext
  match a with
  | ⟨0, _⟩ => show win0_2.index t (0 : Fin 2) * 2000 + 1 * p.val = t.val * 2000 + p.val; omega
  | ⟨1, _⟩ => show win0_2.index t (1 : Fin 2) * 64 + 1 * k.val = k.val; omega

theorem emb3 (t : Fin cfg0.N) (p : Fin 2000) (k : Fin 16) (hq : t.val * 2000 + p.val < 50000) :
    ((cfg0.win 3).blk t).view.emb (ix2 p k) = ix2 (⟨t.val * 2000 + p.val, hq⟩ : Fin 50000) k := by
  have e := idx_facts t
  funext a; apply Fin.ext
  match a with
  | ⟨0, _⟩ => show win0_3.index t (0 : Fin 2) * 2000 + 1 * p.val = t.val * 2000 + p.val; omega
  | ⟨1, _⟩ => show win0_3.index t (1 : Fin 2) * 16 + 1 * k.val = k.val; omega

theorem emb4 (t : Fin cfg0.N) (p : Fin 2000) (k : Fin 1) (hq : t.val * 2000 + p.val < 50000) :
    ((cfg0.win 4).blk t).view.emb (ix2 p k) = ix2 (⟨t.val * 2000 + p.val, hq⟩ : Fin 50000) k := by
  have e := idx_facts t
  funext a; apply Fin.ext
  match a with
  | ⟨0, _⟩ => show win0_4.index t (0 : Fin 2) * 2000 + 1 * p.val = t.val * 2000 + p.val; omega
  | ⟨1, _⟩ => show win0_4.index t (1 : Fin 2) * 1 + 1 * k.val = k.val; omega

theorem emb15 (t : Fin cfg0.N) (p : Fin 2000) (k : Fin 10) (hq : t.val * 2000 + p.val < 50000) :
    ((cfg0.win 15).blk t).view.emb (ix2 p k) = ix2 (⟨t.val * 2000 + p.val, hq⟩ : Fin 50000) k := by
  have e := idx_facts t
  funext a; apply Fin.ext
  match a with
  | ⟨0, _⟩ => show win0_15.index t (0 : Fin 2) * 2000 + 1 * p.val = t.val * 2000 + p.val; omega
  | ⟨1, _⟩ => show win0_15.index t (1 : Fin 2) * 10 + 1 * k.val = k.val; omega

theorem emb5 (t : Fin cfg0.N) (k : Fin 64) (j : Fin 64) :
    ((cfg0.win 5).blk t).view.emb (ix2 k j) = ix2 k j := by
  have e := idx_facts t
  funext a; apply Fin.ext
  match a with
  | ⟨0, _⟩ => show win0_5.index t (0 : Fin 2) * 64 + 1 * k.val = k.val; omega
  | ⟨1, _⟩ => show win0_5.index t (1 : Fin 2) * 64 + 1 * j.val = j.val; omega

theorem emb6 (t : Fin cfg0.N) (k : Fin 64) (j : Fin 64) :
    ((cfg0.win 6).blk t).view.emb (ix2 k j) = ix2 k j := by
  have e := idx_facts t
  funext a; apply Fin.ext
  match a with
  | ⟨0, _⟩ => show win0_6.index t (0 : Fin 2) * 64 + 1 * k.val = k.val; omega
  | ⟨1, _⟩ => show win0_6.index t (1 : Fin 2) * 64 + 1 * j.val = j.val; omega

theorem emb7 (t : Fin cfg0.N) (k : Fin 16) (j : Fin 64) :
    ((cfg0.win 7).blk t).view.emb (ix2 k j) = ix2 k j := by
  have e := idx_facts t
  funext a; apply Fin.ext
  match a with
  | ⟨0, _⟩ => show win0_7.index t (0 : Fin 2) * 16 + 1 * k.val = k.val; omega
  | ⟨1, _⟩ => show win0_7.index t (1 : Fin 2) * 64 + 1 * j.val = j.val; omega

theorem emb8 (t : Fin cfg0.N) (k : Fin 1) (j : Fin 64) :
    ((cfg0.win 8).blk t).view.emb (ix2 k j) = ix2 k j := by
  have e := idx_facts t
  funext a; apply Fin.ext
  match a with
  | ⟨0, _⟩ => show win0_8.index t (0 : Fin 2) * 1 + 1 * k.val = k.val; omega
  | ⟨1, _⟩ => show win0_8.index t (1 : Fin 2) * 64 + 1 * j.val = j.val; omega

theorem emb9 (t : Fin cfg0.N) (k : Fin 64) (j : Fin 64) :
    ((cfg0.win 9).blk t).view.emb (ix2 k j) = ix2 k j := by
  have e := idx_facts t
  funext a; apply Fin.ext
  match a with
  | ⟨0, _⟩ => show win0_9.index t (0 : Fin 2) * 64 + 1 * k.val = k.val; omega
  | ⟨1, _⟩ => show win0_9.index t (1 : Fin 2) * 64 + 1 * j.val = j.val; omega

theorem emb10 (t : Fin cfg0.N) (k : Fin 16) (j : Fin 64) :
    ((cfg0.win 10).blk t).view.emb (ix2 k j) = ix2 k j := by
  have e := idx_facts t
  funext a; apply Fin.ext
  match a with
  | ⟨0, _⟩ => show win0_10.index t (0 : Fin 2) * 16 + 1 * k.val = k.val; omega
  | ⟨1, _⟩ => show win0_10.index t (1 : Fin 2) * 64 + 1 * j.val = j.val; omega

theorem emb11 (t : Fin cfg0.N) (k : Fin 64) (j : Fin 64) :
    ((cfg0.win 11).blk t).view.emb (ix2 k j) = ix2 k j := by
  have e := idx_facts t
  funext a; apply Fin.ext
  match a with
  | ⟨0, _⟩ => show win0_11.index t (0 : Fin 2) * 64 + 1 * k.val = k.val; omega
  | ⟨1, _⟩ => show win0_11.index t (1 : Fin 2) * 64 + 1 * j.val = j.val; omega

theorem emb12 (t : Fin cfg0.N) (k : Fin 1) (j : Fin 64) :
    ((cfg0.win 12).blk t).view.emb (ix2 k j) = ix2 k j := by
  have e := idx_facts t
  funext a; apply Fin.ext
  match a with
  | ⟨0, _⟩ => show win0_12.index t (0 : Fin 2) * 1 + 1 * k.val = k.val; omega
  | ⟨1, _⟩ => show win0_12.index t (1 : Fin 2) * 64 + 1 * j.val = j.val; omega

theorem emb13 (t : Fin cfg0.N) (k : Fin 64) (j : Fin 10) :
    ((cfg0.win 13).blk t).view.emb (ix2 k j) = ix2 k j := by
  have e := idx_facts t
  funext a; apply Fin.ext
  match a with
  | ⟨0, _⟩ => show win0_13.index t (0 : Fin 2) * 64 + 1 * k.val = k.val; omega
  | ⟨1, _⟩ => show win0_13.index t (1 : Fin 2) * 10 + 1 * j.val = j.val; omega

theorem emb14 (t : Fin cfg0.N) (k : Fin 1) (j : Fin 10) :
    ((cfg0.win 14).blk t).view.emb (ix2 k j) = ix2 k j := by
  have e := idx_facts t
  funext a; apply Fin.ext
  match a with
  | ⟨0, _⟩ => show win0_14.index t (0 : Fin 2) * 1 + 1 * k.val = k.val; omega
  | ⟨1, _⟩ => show win0_14.index t (1 : Fin 2) * 10 + 1 * j.val = j.val; omega

/-! ## Each window's block at a point, as a function of its index

A window's block at a point is the view's read of the window's array: the array at the embedded index, the view's
element-type transport being the identity. -/

theorem blk0_at (t : Fin cfg0.N) (y : S2000x64.Idx) :
    (iblk m c 0 t : FVec Ideal S2000x64 .bf16) y
      = V m c (Pipeline.arrRef spec0 0) (((cfg0.win 0).blk t).view.emb y) := by
  unfold iblk
  rw [View.read_apply]
  exact eq_of_heq (cast_heq _ _)
theorem blk0_fn (t : Fin cfg0.N) :
    (iblk m c 0 t : FVec Ideal S2000x64 .bf16) = fun y => W11 m c (((cfg0.win 0).blk t).view.emb y) := by
  funext y
  rw [blk0_at m c t y]

theorem blk1_at (t : Fin cfg0.N) (y : S2000x16.Idx) :
    (iblk m c 1 t : FVec Ideal S2000x16 .bf16) y
      = V m c (Pipeline.arrRef spec0 1) (((cfg0.win 1).blk t).view.emb y) := by
  unfold iblk
  rw [View.read_apply]
  exact eq_of_heq (cast_heq _ _)
theorem blk1_fn (t : Fin cfg0.N) :
    (iblk m c 1 t : FVec Ideal S2000x16 .bf16) = fun y => W12 m c (((cfg0.win 1).blk t).view.emb y) := by
  funext y
  rw [blk1_at m c t y]

theorem blk2_at (t : Fin cfg0.N) (y : S2000x64.Idx) :
    (iblk m c 2 t : FVec Ideal S2000x64 .bf16) y
      = V m c (Pipeline.arrRef spec0 2) (((cfg0.win 2).blk t).view.emb y) := by
  unfold iblk
  rw [View.read_apply]
  exact eq_of_heq (cast_heq _ _)
theorem blk2_fn (t : Fin cfg0.N) :
    (iblk m c 2 t : FVec Ideal S2000x64 .bf16) = fun y => W13 m c (((cfg0.win 2).blk t).view.emb y) := by
  funext y
  rw [blk2_at m c t y]

theorem blk3_at (t : Fin cfg0.N) (y : S2000x16.Idx) :
    (iblk m c 3 t : FVec Ideal S2000x16 .bf16) y
      = V m c (Pipeline.arrRef spec0 3) (((cfg0.win 3).blk t).view.emb y) := by
  unfold iblk
  rw [View.read_apply]
  exact eq_of_heq (cast_heq _ _)
theorem blk3_fn (t : Fin cfg0.N) :
    (iblk m c 3 t : FVec Ideal S2000x16 .bf16) = fun y => W14 m c (((cfg0.win 3).blk t).view.emb y) := by
  funext y
  rw [blk3_at m c t y]

theorem blk4_at (t : Fin cfg0.N) (y : S2000x1.Idx) :
    (iblk m c 4 t : FVec Ideal S2000x1 .f32) y
      = V m c (Pipeline.arrRef spec0 4) (((cfg0.win 4).blk t).view.emb y) := by
  unfold iblk
  rw [View.read_apply]
  exact eq_of_heq (cast_heq _ _)
theorem blk4_fn (t : Fin cfg0.N) :
    (iblk m c 4 t : FVec Ideal S2000x1 .f32) = fun y => W10 m c (((cfg0.win 4).blk t).view.emb y) := by
  funext y
  rw [blk4_at m c t y]

theorem blk5_at (t : Fin cfg0.N) (y : S64x64.Idx) :
    (iblk m c 5 t : FVec Ideal S64x64 .bf16) y
      = V m c (Pipeline.arrRef spec0 5) (((cfg0.win 5).blk t).view.emb y) := by
  unfold iblk
  rw [View.read_apply]
  exact eq_of_heq (cast_heq _ _)
theorem blk5_fn (t : Fin cfg0.N) :
    (iblk m c 5 t : FVec Ideal S64x64 .bf16) = fun y => W16 m c (((cfg0.win 5).blk t).view.emb y) := by
  funext y
  rw [blk5_at m c t y]

theorem blk6_at (t : Fin cfg0.N) (y : S64x64.Idx) :
    (iblk m c 6 t : FVec Ideal S64x64 .bf16) y
      = V m c (Pipeline.arrRef spec0 6) (((cfg0.win 6).blk t).view.emb y) := by
  unfold iblk
  rw [View.read_apply]
  exact eq_of_heq (cast_heq _ _)
theorem blk6_fn (t : Fin cfg0.N) :
    (iblk m c 6 t : FVec Ideal S64x64 .bf16) = fun y => W18 m c (((cfg0.win 6).blk t).view.emb y) := by
  funext y
  rw [blk6_at m c t y]

theorem blk7_at (t : Fin cfg0.N) (y : S16x64.Idx) :
    (iblk m c 7 t : FVec Ideal S16x64 .bf16) y
      = V m c (Pipeline.arrRef spec0 7) (((cfg0.win 7).blk t).view.emb y) := by
  unfold iblk
  rw [View.read_apply]
  exact eq_of_heq (cast_heq _ _)
theorem blk7_fn (t : Fin cfg0.N) :
    (iblk m c 7 t : FVec Ideal S16x64 .bf16) = fun y => W20 m c (((cfg0.win 7).blk t).view.emb y) := by
  funext y
  rw [blk7_at m c t y]

theorem blk8_at (t : Fin cfg0.N) (y : S1x64.Idx) :
    (iblk m c 8 t : FVec Ideal S1x64 .f32) y
      = V m c (Pipeline.arrRef spec0 8) (((cfg0.win 8).blk t).view.emb y) := by
  unfold iblk
  rw [View.read_apply]
  exact eq_of_heq (cast_heq _ _)
theorem blk8_fn (t : Fin cfg0.N) :
    (iblk m c 8 t : FVec Ideal S1x64 .f32) = fun y => W21 m c (((cfg0.win 8).blk t).view.emb y) := by
  funext y
  rw [blk8_at m c t y]

theorem blk9_at (t : Fin cfg0.N) (y : S64x64.Idx) :
    (iblk m c 9 t : FVec Ideal S64x64 .bf16) y
      = V m c (Pipeline.arrRef spec0 9) (((cfg0.win 9).blk t).view.emb y) := by
  unfold iblk
  rw [View.read_apply]
  exact eq_of_heq (cast_heq _ _)
theorem blk9_fn (t : Fin cfg0.N) :
    (iblk m c 9 t : FVec Ideal S64x64 .bf16) = fun y => W23 m c (((cfg0.win 9).blk t).view.emb y) := by
  funext y
  rw [blk9_at m c t y]

theorem blk10_at (t : Fin cfg0.N) (y : S16x64.Idx) :
    (iblk m c 10 t : FVec Ideal S16x64 .bf16) y
      = V m c (Pipeline.arrRef spec0 10) (((cfg0.win 10).blk t).view.emb y) := by
  unfold iblk
  rw [View.read_apply]
  exact eq_of_heq (cast_heq _ _)
theorem blk10_fn (t : Fin cfg0.N) :
    (iblk m c 10 t : FVec Ideal S16x64 .bf16) = fun y => W25 m c (((cfg0.win 10).blk t).view.emb y) := by
  funext y
  rw [blk10_at m c t y]

theorem blk11_at (t : Fin cfg0.N) (y : S64x64.Idx) :
    (iblk m c 11 t : FVec Ideal S64x64 .bf16) y
      = V m c (Pipeline.arrRef spec0 11) (((cfg0.win 11).blk t).view.emb y) := by
  unfold iblk
  rw [View.read_apply]
  exact eq_of_heq (cast_heq _ _)
theorem blk11_fn (t : Fin cfg0.N) :
    (iblk m c 11 t : FVec Ideal S64x64 .bf16) = fun y => W27 m c (((cfg0.win 11).blk t).view.emb y) := by
  funext y
  rw [blk11_at m c t y]

theorem blk12_at (t : Fin cfg0.N) (y : S1x64.Idx) :
    (iblk m c 12 t : FVec Ideal S1x64 .f32) y
      = V m c (Pipeline.arrRef spec0 12) (((cfg0.win 12).blk t).view.emb y) := by
  unfold iblk
  rw [View.read_apply]
  exact eq_of_heq (cast_heq _ _)
theorem blk12_fn (t : Fin cfg0.N) :
    (iblk m c 12 t : FVec Ideal S1x64 .f32) = fun y => W28 m c (((cfg0.win 12).blk t).view.emb y) := by
  funext y
  rw [blk12_at m c t y]

theorem blk13_at (t : Fin cfg0.N) (y : S64x10.Idx) :
    (iblk m c 13 t : FVec Ideal S64x10 .bf16) y
      = V m c (Pipeline.arrRef spec0 13) (((cfg0.win 13).blk t).view.emb y) := by
  unfold iblk
  rw [View.read_apply]
  exact eq_of_heq (cast_heq _ _)
theorem blk13_fn (t : Fin cfg0.N) :
    (iblk m c 13 t : FVec Ideal S64x10 .bf16) = fun y => W29 m c (((cfg0.win 13).blk t).view.emb y) := by
  funext y
  rw [blk13_at m c t y]

theorem blk14_at (t : Fin cfg0.N) (y : S1x10.Idx) :
    (iblk m c 14 t : FVec Ideal S1x10 .f32) y
      = V m c (Pipeline.arrRef spec0 14) (((cfg0.win 14).blk t).view.emb y) := by
  unfold iblk
  rw [View.read_apply]
  exact eq_of_heq (cast_heq _ _)
theorem blk14_fn (t : Fin cfg0.N) :
    (iblk m c 14 t : FVec Ideal S1x10 .f32) = fun y => W30 m c (((cfg0.win 14).blk t).view.emb y) := by
  funext y
  rw [blk14_at m c t y]

set_option maxHeartbeats 2000000 in
/-- WHAT POINT t WRITES at (p, c'): the network's output at node 2000 t + p. -/
theorem block_eq (hO : ∀ i, ∃ x : ℝ, A0 m c i = (x : EReal)) (hR : ∀ i, ∃ x : ℝ, A2 m c i = (x : EReal))
    (hW : ∀ i, ∃ x : ℝ, A5 m c i = (x : EReal)) (hB : ∀ i, ∃ x : ℝ, A6 m c i = (x : EReal))
    (hs : ∀ e, 0 ≤ (A3 m c e).toInt ∧ (A3 m c e).toInt < 50000) (t : Fin cfg0.N) (p : Fin 2000) (c' : Fin 10) (hq : t.val * 2000 + p.val < 50000) :
    out0_15 (F := Ideal)
      (fun y => W11 m c (((cfg0.win 0).blk t).view.emb y))
      (fun y => W12 m c (((cfg0.win 1).blk t).view.emb y))
      (fun y => W13 m c (((cfg0.win 2).blk t).view.emb y))
      (fun y => W14 m c (((cfg0.win 3).blk t).view.emb y))
      (fun y => W10 m c (((cfg0.win 4).blk t).view.emb y))
      (fun y => W16 m c (((cfg0.win 5).blk t).view.emb y))
      (fun y => W18 m c (((cfg0.win 6).blk t).view.emb y))
      (fun y => W20 m c (((cfg0.win 7).blk t).view.emb y))
      (fun y => W21 m c (((cfg0.win 8).blk t).view.emb y))
      (fun y => W23 m c (((cfg0.win 9).blk t).view.emb y))
      (fun y => W25 m c (((cfg0.win 10).blk t).view.emb y))
      (fun y => W27 m c (((cfg0.win 11).blk t).view.emb y))
      (fun y => W28 m c (((cfg0.win 12).blk t).view.emb y))
      (fun y => W29 m c (((cfg0.win 13).blk t).view.emb y))
      (fun y => W30 m c (((cfg0.win 14).blk t).view.emb y)) (ix2 p c')
      = refOutAt (A0 m c) (A1 m c) (A2 m c) (A3 m c) (A4 m c) (A5 m c) (A6 m c) (A7 m c) (A8 m c) (A9 m c) (A10 m c) (⟨t.val * 2000 + p.val, hq⟩ : Fin 50000) c' := by
  refine (Cert.KernelBlock.out_apply
      (fun y => W11 m c (((cfg0.win 0).blk t).view.emb y))
      (fun y => W12 m c (((cfg0.win 1).blk t).view.emb y))
      (fun y => W13 m c (((cfg0.win 2).blk t).view.emb y))
      (fun y => W14 m c (((cfg0.win 3).blk t).view.emb y))
      (fun y => W10 m c (((cfg0.win 4).blk t).view.emb y))
      (fun y => W16 m c (((cfg0.win 5).blk t).view.emb y))
      (fun y => W18 m c (((cfg0.win 6).blk t).view.emb y))
      (fun y => W20 m c (((cfg0.win 7).blk t).view.emb y))
      (fun y => W21 m c (((cfg0.win 8).blk t).view.emb y))
      (fun y => W23 m c (((cfg0.win 9).blk t).view.emb y))
      (fun y => W25 m c (((cfg0.win 10).blk t).view.emb y))
      (fun y => W27 m c (((cfg0.win 11).blk t).view.emb y))
      (fun y => W28 m c (((cfg0.win 12).blk t).view.emb y))
      (fun y => W29 m c (((cfg0.win 13).blk t).view.emb y))
      (fun y => W30 m c (((cfg0.win 14).blk t).view.emb y)) p c').trans ?_
  simp only [emb0 t p _ hq, emb1 t p _ hq, emb2 t p _ hq, emb3 t p _ hq, emb4 t p _ hq, emb5 t, emb6 t, emb7 t, emb8 t,
    emb9 t, emb10 t, emb11 t, emb12 t, emb13 t, emb14 t]
  exact node_eq m c hO hR hW hB hs (⟨t.val * 2000 + p.val, hq⟩ : Fin 50000) c'

set_option maxHeartbeats 2000000 in
/-- WHAT POINT t WRITES BACK is block t of the network's output. -/
theorem flushed_eq (hO : ∀ i, ∃ x : ℝ, A0 m c i = (x : EReal)) (hR : ∀ i, ∃ x : ℝ, A2 m c i = (x : EReal))
    (hW : ∀ i, ∃ x : ℝ, A5 m c i = (x : EReal)) (hB : ∀ i, ∃ x : ℝ, A6 m c i = (x : EReal))
    (hs : ∀ e, 0 ≤ (A3 m c e).toInt ∧ (A3 m c e).toInt < 50000) (t : Fin cfg0.N) :
    (dats m 0 c).flushed 15 t
      = ((cfg0.win 15).blk t).view.read (Elt Ideal) (refOut (A0 m c) (A1 m c) (A2 m c) (A3 m c) (A4 m c) (A5 m c) (A6 m c) (A7 m c) (A8 m c) (A9 m c) (A10 m c)) := by
  rw [Cert.KernelIdeal.Value.flushed15, blk0_fn m c t, blk1_fn m c t, blk2_fn m c t, blk3_fn m c t, blk4_fn m c t,
    blk5_fn m c t, blk6_fn m c t, blk7_fn m c t, blk8_fn m c t, blk9_fn m c t, blk10_fn m c t, blk11_fn m c t,
    blk12_fn m c t, blk13_fn m c t, blk14_fn m c t]
  show (out0_15 (F := Ideal)
      (fun y => W11 m c (((cfg0.win 0).blk t).view.emb y))
      (fun y => W12 m c (((cfg0.win 1).blk t).view.emb y))
      (fun y => W13 m c (((cfg0.win 2).blk t).view.emb y))
      (fun y => W14 m c (((cfg0.win 3).blk t).view.emb y))
      (fun y => W10 m c (((cfg0.win 4).blk t).view.emb y))
      (fun y => W16 m c (((cfg0.win 5).blk t).view.emb y))
      (fun y => W18 m c (((cfg0.win 6).blk t).view.emb y))
      (fun y => W20 m c (((cfg0.win 7).blk t).view.emb y))
      (fun y => W21 m c (((cfg0.win 8).blk t).view.emb y))
      (fun y => W23 m c (((cfg0.win 9).blk t).view.emb y))
      (fun y => W25 m c (((cfg0.win 10).blk t).view.emb y))
      (fun y => W27 m c (((cfg0.win 11).blk t).view.emb y))
      (fun y => W28 m c (((cfg0.win 12).blk t).view.emb y))
      (fun y => W29 m c (((cfg0.win 13).blk t).view.emb y))
      (fun y => W30 m c (((cfg0.win 14).blk t).view.emb y)) : S2000x10.Idx → EReal)
    = fun y => refOut (A0 m c) (A1 m c) (A2 m c) (A3 m c) (A4 m c) (A5 m c) (A6 m c) (A7 m c) (A8 m c) (A9 m c) (A10 m c) (((cfg0.win 15).blk t).view.emb y)
  funext y
  obtain ⟨p, c', rfl⟩ : ∃ (p : Fin 2000) (c' : Fin 10), y = ix2 p c' := ⟨y 0, y 1, eq_ix2 y⟩
  have ht : t.val < 25 := t.isLt
  have hq : t.val * 2000 + p.val < 50000 := by have := p.isLt; omega
  rw [emb15 t p c' hq]
  exact block_eq m c hO hR hW hB hs t p c' hq

/-- An index of the output is in point t's block iff each coordinate is in the block's range. -/
theorem mem_blk (t : Fin cfg0.N) (i : S50000x10.Idx) :
    i ∈ ((cfg0.win 15).blk t).view.set ↔ ∀ a : Fin 2, win0_15.index t a * S2000x10.size a ≤ (i a).val
      ∧ (i a).val < win0_15.index t a * S2000x10.size a + S2000x10.size a := by
  show i ∈ ((View.whole main_v31).slice (win0_15.rect t)).set ↔ _
  rw [View.set_slice_whole, Rect.mem_set_unit]
  exact Iff.rfl

/-- Every row of the output lies in the block of the point its number divided by 2000 names. -/
theorem cover (i : S50000x10.Idx) :
    ∃ t : Fin cfg0.N, (cfg0.win 15).flush t = true ∧ i ∈ ((cfg0.win 15).blk t).view.set := by
  have hi0 : (i 0).val < 50000 := (i 0).isLt
  have hi1 : (i 1).val < 10 := (i 1).isLt
  have hlt : (i 0).val / 2000 < 25 := by omega
  refine ⟨⟨(i 0).val / 2000, hlt⟩, flush0_15 _, ?_⟩
  rw [mem_blk]
  have e := idx_facts ⟨(i 0).val / 2000, hlt⟩
  have ht : (⟨(i 0).val / 2000, hlt⟩ : Fin cfg0.N).val = (i 0).val / 2000 := rfl
  intro a
  match a with
  | ⟨0, _⟩ =>
    show win0_15.index ⟨(i 0).val / 2000, hlt⟩ (0 : Fin 2) * 2000 ≤ (i 0).val
      ∧ (i 0).val < win0_15.index ⟨(i 0).val / 2000, hlt⟩ (0 : Fin 2) * 2000 + 2000
    omega
  | ⟨1, _⟩ =>
    show win0_15.index ⟨(i 0).val / 2000, hlt⟩ (1 : Fin 2) * 10 ≤ (i 1).val
      ∧ (i 1).val < win0_15.index ⟨(i 0).val / 2000, hlt⟩ (1 : Fin 2) * 10 + 10
    omega

/-- THE OUTPUT ARRAY after the run is the network's output function of the arguments. -/
theorem final (hO : ∀ i, ∃ x : ℝ, (A0 m c) i = (x : EReal)) (hR : ∀ i, ∃ x : ℝ, (A2 m c) i = (x : EReal))
    (hW : ∀ i, ∃ x : ℝ, (A5 m c) i = (x : EReal)) (hB : ∀ i, ∃ x : ℝ, (A6 m c) i = (x : EReal))
    (hs : ∀ e, 0 ≤ ((A3 m c) e).toInt ∧ ((A3 m c) e).toInt < 50000) :
    (dats m 0 c).arrAt 15 cfg0.N = refOut (A0 m c) (A1 m c) (A2 m c) (A3 m c) (A4 m c) (A5 m c) (A6 m c) (A7 m c) (A8 m c) (A9 m c) (A10 m c) :=
  (dats m 0 c).arrAt_eq_of_cover 15 (refOut (A0 m c) (A1 m c) (A2 m c) (A3 m c) (A4 m c) (A5 m c) (A6 m c) (A7 m c) (A8 m c) (A9 m c) (A10 m c))
    (fun t _ => flushed_eq m c hO hR hW hB hs t) cover

/-- THE KERNEL'S RUN: it ends with the result array at the network's output and the arguments unchanged. -/
theorem run (hyps : ∀ c : Dev nD, (∀ i, ∃ x : ℝ, (A0 m c) i = (x : EReal)) ∧ (∀ i, ∃ x : ℝ, (A2 m c) i = (x : EReal))
      ∧ (∀ i, ∃ x : ℝ, (A5 m c) i = (x : EReal)) ∧ (∀ i, ∃ x : ℝ, (A6 m c) i = (x : EReal))
      ∧ (∀ e, 0 ≤ ((A3 m c) e).toInt ∧ ((A3 m c) e).toInt < 50000)) :
    θ_run defs (onTc (τ := τ) (main (F := Ideal))) ⟨m, fun _ => 0, ρ⟩ fun r => ∀ c : Dev nD,
      r.2.mem ((c : Thread nD τ).loc main_v31) = refOut (A0 m c) (A1 m c) (A2 m c) (A3 m c) (A4 m c) (A5 m c) (A6 m c) (A7 m c) (A8 m c) (A9 m c) (A10 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans
      (final m c (hyps c).1 (hyps c).2.1 (hyps c).2.2.1 (hyps c).2.2.2.1 (hyps c).2.2.2.2), (h c).2⟩)
    (Cert.KernelIdeal.Value.run_blocks m ρ)

end Cert.KernelValue

end
-- ==== Proof.lean ====
/-
  An interaction network over 50000 nodes and 800000 edges: a Pallas kernel with its host-side gathers and segment
  sums against the plain reference, equal over the extended reals.

  The reference gathers the sender and receiver states of every edge, applies one affine relation map per edge, sums
  the results onto the receiver nodes, and runs an affine object map, an affine class map and a row softmax per node.
  The kernel sums FIRST — the gathered sender states, the relation attributes and the constant one, each over the
  edges received by a node — and then applies the relation map once per node, the node's own state and the bias
  multiplied by the number of received edges; the rest it computes block by block, 2000 nodes at a time. For inputs
  whose float entries are real numbers the two agree by distributivity of multiplication over finite sums of reals;
  the weights cut into row blocks are a regrouping of one sum over 144 rows into three; format changes are the
  identity; both softmaxes are the same function of the scores. The kernel's gather keeps a gathered row only where
  its index is in range and puts a not-a-number word elsewhere, while the reference's gather clamps: the two read the
  same rows exactly for sender words in [0, 50000), which the precondition states beside finiteness.

  The kernel's value comes from the generated frame run read block by block, the reference's from its generated run
  read one operation at a time; the frames of the two kernel programs are the generated ones, the reference's frame is
  its run with the result dropped, and the idealization rewrote nothing.
-/
import proofs.«165802_j90469191123233_2_alg».proof.Defs
import proofs.«165802_j90469191123233_2_alg».proof.Proof.Gen.Kernel
import proofs.«165802_j90469191123233_2_alg».proof.Proof.Gen.Kernel.Skeleton
import proofs.«165802_j90469191123233_2_alg».proof.Proof.Gen.Kernel.Launch
import proofs.«165802_j90469191123233_2_alg».proof.Proof.Gen.Kernel.Points
import proofs.«165802_j90469191123233_2_alg».proof.Proof.Gen.Kernel.Frame
import proofs.«165802_j90469191123233_2_alg».proof.Proof.Gen.KernelIdeal
import proofs.«165802_j90469191123233_2_alg».proof.Proof.Gen.KernelIdeal.Skeleton
import proofs.«165802_j90469191123233_2_alg».proof.Proof.Gen.KernelIdeal.Launch
import proofs.«165802_j90469191123233_2_alg».proof.Proof.Gen.KernelIdeal.Points
import proofs.«165802_j90469191123233_2_alg».proof.Proof.Gen.KernelIdeal.Frame
import proofs.«165802_j90469191123233_2_alg».proof.Proof.Gen.ReferenceIdeal
import proofs.«165802_j90469191123233_2_alg».proof.Proof.Gen.Pre_finite_inputs
import proofs.«165802_j90469191123233_2_alg».proof.Proof.Gen.KernelIdeal.Value
import proofs.«165802_j90469191123233_2_alg».proof.Proof.Gen.ReferenceIdeal.Run
import proofs.«165802_j90469191123233_2_alg».proof.Proof.Gen.ReferenceIdeal.Read
import proofs.«165802_j90469191123233_2_alg».proof.Proof.PreFacts
import proofs.«165802_j90469191123233_2_alg».proof.Proof.RefRead
import proofs.«165802_j90469191123233_2_alg».proof.Proof.KernelValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result array at the network's output function of the (agreeing) arguments. -/
theorem algebraic : Cert.algebraic_KernelIdeal_ReferenceIdeal := by
  intro m ρ m' ρ' hpre hagree
  have hyps := fun c : Dev Cert.KernelIdeal.nD => Cert.PreFacts.facts_of_pre _ _ _ _ _ _ _ _ _ _ _ (hpre c)
  refine ⟨fun c => Cert.RefModel.refOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)),
    Cert.KernelValue.run m ρ hyps, ?_⟩
  refine (θ_run Cert.ReferenceIdeal.defs _ _).mono (fun _ h c => ⟨?_, (h c).2⟩)
    (Cert.ReferenceIdeal.Value.run (F := Ideal) m' ρ')
  obtain ⟨e0, e1, e2, e3, e4, e5, e6, e7, e8, e9, e10⟩ := hagree c
  rw [(h c).1, Cert.ReferenceIdeal.Read.val_main_v41_eq, Cert.RefRead.result_eq, e0, e1, e2, e3, e4, e5, e6, e7, e8, e9, e10]

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, trivial, algebraic⟩

end Cert.Proof

end
